-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x133 : Shape := ⟨2, ![50000, 133]⟩
abbrev S2x1600000 : Shape := ⟨2, ![2, 1600000]⟩
abbrev S50000 : Shape := ⟨1, ![50000]⟩
abbrev S133x133 : Shape := ⟨2, ![133, 133]⟩
abbrev S133 : Shape := ⟨1, ![133]⟩
abbrev S_ : Shape := ⟨0, ![]⟩

class Facts : Prop where
  bcast_S_S50000x133 : S_.BroadcastsInDim S50000x133 (![] : Fin 0 → Fin S50000x133.rank)
  reducesTo_S50000x133_S_d0_1 : S50000x133.ReducesTo [0, 1] S_
  h_S_ : 0 < S_.numel
  bcast_S_S133x133 : S_.BroadcastsInDim S133x133 (![] : Fin 0 → Fin S133x133.rank)
  reducesTo_S133x133_S_d0_1 : S133x133.ReducesTo [0, 1] S_
  bcast_S_S133 : S_.BroadcastsInDim S133 (![] : Fin 0 → Fin S133.rank)
  reducesTo_S133_S_d0 : S133.ReducesTo [0] S_

variable [Facts]

def fn_part3 {F : FTy → Type} [FloatOps F] (main_arg13 : FVec F S133 .f32) (main_arg14 : FVec F S133 .f32) (main_v48 : IVec S_ 1) (main_v49 : FVec F S133 .f32) (main_v50 : FVec F S133 .f32) : IVec S_ 1 :=
  let main_v51 : IVec S133 1 := cmpf .olt main_v49 main_v50
  let main_c_19 : IVec S_ 1 := constantI S_ 1 1#1
  let main_v52 : IVec S_ 1 := (fun x v => Host.reduce IntOp.andi x v reducesTo_S133_S_d0 h_S_) main_v51 main_c_19
  let main_v53 : IVec S_ 1 := andi main_v48 main_v52
  let main_v54 : FVec F S133 .f32 := Host.absf main_arg13
  let main_cst_20 : FVec F S_ .f32 := constant S_ .f32 0x7F800000#32
  let main_v55 : FVec F S133 .f32 := broadcastInDim S133 ![] bcast_S_S133 main_cst_20
  let main_v56 : IVec S133 1 := cmpf .olt main_v54 main_v55
  let main_c_21 : IVec S_ 1 := constantI S_ 1 1#1
  let main_v57 : IVec S_ 1 := (fun x v => Host.reduce IntOp.andi x v reducesTo_S133_S_d0 h_S_) main_v56 main_c_21
  let main_v58 : IVec S_ 1 := andi main_v53 main_v57
  let main_v59 : FVec F S133 .f32 := Host.absf main_arg14
  let main_cst_22 : FVec F S_ .f32 := constant S_ .f32 0x7F800000#32
  let main_v60 : FVec F S133 .f32 := broadcastInDim S133 ![] bcast_S_S133 main_cst_22
  let main_v61 : IVec S133 1 := cmpf .olt main_v59 main_v60
  let main_c_23 : IVec S_ 1 := constantI S_ 1 1#1
  let main_v62 : IVec S_ 1 := (fun x v => Host.reduce IntOp.andi x v reducesTo_S133_S_d0 h_S_) main_v61 main_c_23
  let main_v63 : IVec S_ 1 := andi main_v58 main_v62
  main_v63

def fn_part2 {F : FTy → Type} [FloatOps F] (main_arg9 : FVec F S133 .f32) (main_arg10 : FVec F S133 .f32) (main_arg11 : FVec F S133 .f32) (main_arg12 : FVec F S133 .f32) (main_arg13 : FVec F S133 .f32) (main_arg14 : FVec F S133 .f32) (main_v33 : IVec S_ 1) : IVec S_ 1 :=
  let main_v34 : FVec F S133 .f32 := Host.absf main_arg9
  let main_cst_12 : FVec F S_ .f32 := constant S_ .f32 0x7F800000#32
  let main_v35 : FVec F S133 .f32 := broadcastInDim S133 ![] bcast_S_S133 main_cst_12
  let main_v36 : IVec S133 1 := cmpf .olt main_v34 main_v35
  let main_c_13 : IVec S_ 1 := constantI S_ 1 1#1
  let main_v37 : IVec S_ 1 := (fun x v => Host.reduce IntOp.andi x v reducesTo_S133_S_d0 h_S_) main_v36 main_c_13
  let main_v38 : IVec S_ 1 := andi main_v33 main_v37
  let main_v39 : FVec F S133 .f32 := Host.absf main_arg10
  let main_cst_14 : FVec F S_ .f32 := constant S_ .f32 0x7F800000#32
  let main_v40 : FVec F S133 .f32 := broadcastInDim S133 ![] bcast_S_S133 main_cst_14
  let main_v41 : IVec S133 1 := cmpf .olt main_v39 main_v40
  let main_c_15 : IVec S_ 1 := constantI S_ 1 1#1
  let main_v42 : IVec S_ 1 := (fun x v => Host.reduce IntOp.andi x v reducesTo_S133_S_d0 h_S_) main_v41 main_c_15
  let main_v43 : IVec S_ 1 := andi main_v38 main_v42
  let main_v44 : FVec F S133 .f32 := Host.absf main_arg11
  let main_cst_16 : FVec F S_ .f32 := constant S_ .f32 0x7F800000#32
  let main_v45 : FVec F S133 .f32 := broadcastInDim S133 ![] bcast_S_S133 main_cst_16
  let main_v46 : IVec S133 1 := cmpf .olt main_v44 main_v45
  let main_c_17 : IVec S_ 1 := constantI S_ 1 1#1
  let main_v47 : IVec S_ 1 := (fun x v => Host.reduce IntOp.andi x v reducesTo_S133_S_d0 h_S_) main_v46 main_c_17
  let main_v48 : IVec S_ 1 := andi main_v43 main_v47
  let main_v49 : FVec F S133 .f32 := Host.absf main_arg12
  let main_cst_18 : FVec F S_ .f32 := constant S_ .f32 0x7F800000#32
  let main_v50 : FVec F S133 .f32 := broadcastInDim S133 ![] bcast_S_S133 main_cst_18
  fn_part3 (F := F) main_arg13 main_arg14 main_v48 main_v49 main_v50

def fn_part1 {F : FTy → Type} [FloatOps F] (main_arg6 : FVec F S133 .f32) (main_arg7 : FVec F S133 .f32) (main_arg8 : FVec F S133 .f32) (main_arg9 : FVec F S133 .f32) (main_arg10 : FVec F S133 .f32) (main_arg11 : FVec F S133 .f32) (main_arg12 : FVec F S133 .f32) (main_arg13 : FVec F S133 .f32) (main_arg14 : FVec F S133 .f32) (main_v13 : IVec S_ 1) (main_v16 : IVec S133x133 1) : IVec S_ 1 :=
  let main_c_5 : IVec S_ 1 := constantI S_ 1 1#1
  let main_v17 : IVec S_ 1 := (fun x v => Host.reduce IntOp.andi x v reducesTo_S133x133_S_d0_1 h_S_) main_v16 main_c_5
  let main_v18 : IVec S_ 1 := andi main_v13 main_v17
  let main_v19 : FVec F S133 .f32 := Host.absf main_arg6
  let main_cst_6 : FVec F S_ .f32 := constant S_ .f32 0x7F800000#32
  let main_v20 : FVec F S133 .f32 := broadcastInDim S133 ![] bcast_S_S133 main_cst_6
  let main_v21 : IVec S133 1 := cmpf .olt main_v19 main_v20
  let main_c_7 : IVec S_ 1 := constantI S_ 1 1#1
  let main_v22 : IVec S_ 1 := (fun x v => Host.reduce IntOp.andi x v reducesTo_S133_S_d0 h_S_) main_v21 main_c_7
  let main_v23 : IVec S_ 1 := andi main_v18 main_v22
  let main_v24 : FVec F S133 .f32 := Host.absf main_arg7
  let main_cst_8 : FVec F S_ .f32 := constant S_ .f32 0x7F800000#32
  let main_v25 : FVec F S133 .f32 := broadcastInDim S133 ![] bcast_S_S133 main_cst_8
  let main_v26 : IVec S133 1 := cmpf .olt main_v24 main_v25
  let main_c_9 : IVec S_ 1 := constantI S_ 1 1#1
  let main_v27 : IVec S_ 1 := (fun x v => Host.reduce IntOp.andi x v reducesTo_S133_S_d0 h_S_) main_v26 main_c_9
  let main_v28 : IVec S_ 1 := andi main_v23 main_v27
  let main_v29 : FVec F S133 .f32 := Host.absf main_arg8
  let main_cst_10 : FVec F S_ .f32 := constant S_ .f32 0x7F800000#32
  let main_v30 : FVec F S133 .f32 := broadcastInDim S133 ![] bcast_S_S133 main_cst_10
  let main_v31 : IVec S133 1 := cmpf .olt main_v29 main_v30
  let main_c_11 : IVec S_ 1 := constantI S_ 1 1#1
  let main_v32 : IVec S_ 1 := (fun x v => Host.reduce IntOp.andi x v reducesTo_S133_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x133 .f32) (main_arg1 : IVec S2x1600000 32) (main_arg2 : IVec S50000 32) (main_arg3 : FVec F S133x133 .f32) (main_arg4 : FVec F S133 .f32) (main_arg5 : FVec F S133x133 .f32) (main_arg6 : FVec F S133 .f32) (main_arg7 : FVec F S133 .f32) (main_arg8 : FVec F S133 .f32) (main_arg9 : FVec F S133 .f32) (main_arg10 : FVec F S133 .f32) (main_arg11 : FVec F S133 .f32) (main_arg12 : FVec F S133 .f32) (main_arg13 : FVec F S133 .f32) (main_arg14 : FVec F S133 .f32) : IVec S_ 1 :=
  let main_v0 : FVec F S50000x133 .f32 := Host.absf main_arg0
  let main_cst : FVec F S_ .f32 := constant S_ .f32 0x7F800000#32
  let main_v1 : FVec F S50000x133 .f32 := broadcastInDim S50000x133 ![] bcast_S_S50000x133 main_cst
  let main_v2 : IVec S50000x133 1 := cmpf .olt main_v0 main_v1
  let main_c : IVec S_ 1 := constantI S_ 1 1#1
  let main_v3 : IVec S_ 1 := (fun x v => Host.reduce IntOp.andi x v reducesTo_S50000x133_S_d0_1 h_S_) main_v2 main_c
  let main_v4 : FVec F S133x133 .f32 := Host.absf main_arg3
  let main_cst_0 : FVec F S_ .f32 := constant S_ .f32 0x7F800000#32
  let main_v5 : FVec F S133x133 .f32 := broadcastInDim S133x133 ![] bcast_S_S133x133 main_cst_0
  let main_v6 : IVec S133x133 1 := cmpf .olt main_v4 main_v5
  let main_c_1 : IVec S_ 1 := constantI S_ 1 1#1
  let main_v7 : IVec S_ 1 := (fun x v => Host.reduce IntOp.andi x v reducesTo_S133x133_S_d0_1 h_S_) main_v6 main_c_1
  let main_v8 : IVec S_ 1 := andi main_v3 main_v7
  let main_v9 : FVec F S133 .f32 := Host.absf main_arg4
  let main_cst_2 : FVec F S_ .f32 := constant S_ .f32 0x7F800000#32
  let main_v10 : FVec F S133 .f32 := broadcastInDim S133 ![] bcast_S_S133 main_cst_2
  let main_v11 : IVec S133 1 := cmpf .olt main_v9 main_v10
  let main_c_3 : IVec S_ 1 := constantI S_ 1 1#1
  let main_v12 : IVec S_ 1 := (fun x v => Host.reduce IntOp.andi x v reducesTo_S133_S_d0 h_S_) main_v11 main_c_3
  let main_v13 : IVec S_ 1 := andi main_v8 main_v12
  let main_v14 : FVec F S133x133 .f32 := Host.absf main_arg5
  let main_cst_4 : FVec F S_ .f32 := constant S_ .f32 0x7F800000#32
  let main_v15 : FVec F S133x133 .f32 := broadcastInDim S133x133 ![] bcast_S_S133x133 main_cst_4
  let main_v16 : IVec S133x133 1 := cmpf .olt main_v14 main_v15
  fn_part1 (F := F) main_arg6 main_arg7 main_arg8 main_arg9 main_arg10 main_arg11 main_arg12 main_arg13 main_arg14 main_v13 main_v16
-- ==== Kernel.lean ====
abbrev S50000x133 : Shape := ⟨2, ![50000, 133]⟩
abbrev S2x1600000 : Shape := ⟨2, ![2, 1600000]⟩
abbrev S50000 : Shape := ⟨1, ![50000]⟩
abbrev S133x133 : Shape := ⟨2, ![133, 133]⟩
abbrev S133 : Shape := ⟨1, ![133]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S5000x133 : Shape := ⟨2, ![5000, 133]⟩
abbrev S1650000x133 : Shape := ⟨2, ![1650000, 133]⟩
abbrev S1x133 : Shape := ⟨2, ![1, 133]⟩
abbrev S2048x133 : Shape := ⟨2, ![2048, 133]⟩
abbrev S50000x1 : Shape := ⟨2, ![50000, 1]⟩
abbrev S2048 : Shape := ⟨1, ![2048]⟩
abbrev S2048x1 : Shape := ⟨2, ![2048, 1]⟩

abbrev nBuf : Space → Nat
  | .hbm => 117
  | .vmem => 28
  | .smem => 0
  | _ => 0

abbrev bufTy : (tb : Table) → Fin (tcTables nBuf tb) → BufTy
  | .hbm, ⟨0, _⟩ => ⟨S50000x133, .f32⟩
  | .hbm, ⟨1, _⟩ => ⟨S2x1600000, .i32⟩
  | .hbm, ⟨2, _⟩ => ⟨S50000, .i32⟩
  | .hbm, ⟨3, _⟩ => ⟨S133x133, .f32⟩
  | .hbm, ⟨4, _⟩ => ⟨S133, .f32⟩
  | .hbm, ⟨5, _⟩ => ⟨S133x133, .f32⟩
  | .hbm, ⟨6, _⟩ => ⟨S133, .f32⟩
  | .hbm, ⟨7, _⟩ => ⟨S133, .f32⟩
  | .hbm, ⟨8, _⟩ => ⟨S133, .f32⟩
  | .hbm, ⟨9, _⟩ => ⟨S133, .f32⟩
  | .hbm, ⟨10, _⟩ => ⟨S133, .f32⟩
  | .hbm, ⟨11, _⟩ => ⟨S133, .f32⟩
  | .hbm, ⟨12, _⟩ => ⟨S133, .f32⟩
  | .hbm, ⟨13, _⟩ => ⟨S133, .f32⟩
  | .hbm, ⟨14, _⟩ => ⟨S133, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S50000, .i32⟩
  | .hbm, ⟨20, _⟩ => ⟨S1650000, .i32⟩
  | .hbm, ⟨21, _⟩ => ⟨S1650000, .i32⟩
  | .hbm, ⟨22, _⟩ => ⟨S_, .f32⟩
  | .hbm, ⟨23, _⟩ => ⟨S1650000, .f32⟩
  | .hbm, ⟨24, _⟩ => ⟨S_, .f32⟩
  | .hbm, ⟨25, _⟩ => ⟨S50000, .f32⟩
  | .hbm, ⟨26, _⟩ => ⟨S1650000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000, .f32⟩
  | .hbm, ⟨54, _⟩ => ⟨S1650000, .f32⟩
  | .hbm, ⟨55, _⟩ => ⟨S50000x133, .f32⟩
  | .hbm, ⟨56, _⟩ => ⟨S_, .i32⟩
  | .hbm, ⟨57, _⟩ => ⟨S1650000, .i32⟩
  | .hbm, ⟨58, _⟩ => ⟨S1650000, .i1⟩
  | .hbm, ⟨59, _⟩ => ⟨S_, .i32⟩
  | .hbm, ⟨60, _⟩ => ⟨S1650000, .i32⟩
  | .hbm, ⟨61, _⟩ => ⟨S1650000, .i32⟩
  | .hbm, ⟨62, _⟩ => ⟨S1650000, .i32⟩
  | .hbm, ⟨63, _⟩ => ⟨S1650000x1, .i32⟩
  | .hbm, ⟨64, _⟩ => ⟨S1650000x133, .f32⟩
  | .hbm, ⟨65, _⟩ => ⟨S1650000x1, .f32⟩
  | .hbm, ⟨66, _⟩ => ⟨S1650000x133, .f32⟩
  | .hbm, ⟨67, _⟩ => ⟨S1650000x133, .f32⟩
  | .hbm, ⟨68, _⟩ => ⟨S_, .f32⟩
  | .hbm, ⟨69, _⟩ => ⟨S50000x133, .f32⟩
  | .hbm, ⟨70, _⟩ => ⟨S1650000x1, .i32⟩
  | .hbm, ⟨71, _⟩ => ⟨S50000x133, .f32⟩
  | .hbm, ⟨72, _⟩ => ⟨S1x133, .f32⟩
  | .hbm, ⟨73, _⟩ => ⟨S1x133, .f32⟩
  | .hbm, ⟨74, _⟩ => ⟨S1x133, .f32⟩
  | .hbm, ⟨75, _⟩ => ⟨S1x133, .f32⟩
  | .hbm, ⟨76, _⟩ => ⟨S1x133, .f32⟩
  | .hbm, ⟨77, _⟩ => ⟨S50000x133, .f32⟩
  | .hbm, ⟨78, _⟩ => ⟨S50000x133, .f32⟩
  | .hbm, ⟨79, _⟩ => ⟨S_, .i32⟩
  | .hbm, ⟨80, _⟩ => ⟨S1650000, .i32⟩
  | .hbm, ⟨81, _⟩ => ⟨S1650000, .i1⟩
  | .hbm, ⟨82, _⟩ => ⟨S_, .i32⟩
  | .hbm, ⟨83, _⟩ => ⟨S1650000, .i32⟩
  | .hbm, ⟨84, _⟩ => ⟨S1650000, .i32⟩
  | .hbm, ⟨85, _⟩ => ⟨S1650000, .i32⟩
  | .hbm, ⟨86, _⟩ => ⟨S1650000x1, .i32⟩
  | .hbm, ⟨87, _⟩ => ⟨S1650000x133, .f32⟩
  | .hbm, ⟨88, _⟩ => ⟨S1650000x1, .f32⟩
  | .hbm, ⟨89, _⟩ => ⟨S1650000x133, .f32⟩
  | .hbm, ⟨90, _⟩ => ⟨S1650000x133, .f32⟩
  | .hbm, ⟨91, _⟩ => ⟨S_, .f32⟩
  | .hbm, ⟨92, _⟩ => ⟨S50000x133, .f32⟩
  | .hbm, ⟨93, _⟩ => ⟨S1650000x1, .i32⟩
  | .hbm, ⟨94, _⟩ => ⟨S50000x133, .f32⟩
  | .hbm, ⟨95, _⟩ => ⟨S1x133, .f32⟩
  | .hbm, ⟨96, _⟩ => ⟨S1x133, .f32⟩
  | .hbm, ⟨97, _⟩ => ⟨S1x133, .f32⟩
  | .hbm, ⟨98, _⟩ => ⟨S1x133, .f32⟩
  | .hbm, ⟨99, _⟩ => ⟨S1x133, .f32⟩
  | .hbm, ⟨100, _⟩ => ⟨S50000x133, .f32⟩
  | .hbm, ⟨101, _⟩ => ⟨S_, .f32⟩
  | .hbm, ⟨102, _⟩ => ⟨S2048x133, .f32⟩
  | .hbm, ⟨103, _⟩ => ⟨S50000x1, .i32⟩
  | .hbm, ⟨104, _⟩ => ⟨S2048x133, .f32⟩
  | .hbm, ⟨105, _⟩ => ⟨S_, .f32⟩
  | .hbm, ⟨106, _⟩ => ⟨S50000, .f32⟩
  | .hbm, ⟨107, _⟩ => ⟨S_, .f32⟩
  | .hbm, ⟨108, _⟩ => ⟨S2048, .f32⟩
  | .hbm, ⟨109, _⟩ => ⟨S50000x1, .i32⟩
  | .hbm, ⟨110, _⟩ => ⟨S2048, .f32⟩
  | .hbm, ⟨111, _⟩ => ⟨S_, .f32⟩
  | .hbm, ⟨112, _⟩ => ⟨S2048, .f32⟩
  | .hbm, ⟨113, _⟩ => ⟨S2048, .f32⟩
  | .hbm, ⟨114, _⟩ => ⟨S2048x1, .f32⟩
  | .hbm, ⟨115, _⟩ => ⟨S2048x133, .f32⟩
  | .hbm, ⟨116, _⟩ => ⟨S2048x133, .f32⟩
  | .local _ .vmem, ⟨0, _⟩ => ⟨S5000x133, .f32⟩
  | .local _ .vmem, ⟨1, _⟩ => ⟨S5000x133, .f32⟩
  | .local _ .vmem, ⟨2, _⟩ => ⟨S133x133, .f32⟩
  | .local _ .vmem, ⟨3, _⟩ => ⟨S5000x133, .f32⟩
  | .local _ .vmem, ⟨4, _⟩ => ⟨S5000x133, .f32⟩
  | .local _ .vmem, ⟨5, _⟩ => ⟨S5000x133, .f32⟩
  | .local _ .vmem, ⟨6, _⟩ => ⟨S5000x133, .f32⟩
  | .local _ .vmem, ⟨7, _⟩ => ⟨S1x133, .f32⟩
  | .local _ .vmem, ⟨8, _⟩ => ⟨S1x133, .f32⟩
  | .local _ .vmem, ⟨9, _⟩ => ⟨S1x133, .f32⟩
  | .local _ .vmem, ⟨10, _⟩ => ⟨S1x133, .f32⟩
  | .local _ .vmem, ⟨11, _⟩ => ⟨S1x133, .f32⟩
  | .local _ .vmem, ⟨12, _⟩ => ⟨S5000x133, .f32⟩
  | .local _ .vmem, ⟨13, _⟩ => ⟨S5000x133, .f32⟩
  | .local _ .vmem, ⟨14, _⟩ => ⟨S5000x133, .f32⟩
  | .local _ .vmem, ⟨15, _⟩ => ⟨S5000x133, .f32⟩
  | .local _ .vmem, ⟨16, _⟩ => ⟨S133x133, .f32⟩
  | .local _ .vmem, ⟨17, _⟩ => ⟨S5000x133, .f32⟩
  | .local _ .vmem, ⟨18, _⟩ => ⟨S5000x133, .f32⟩
  | .local _ .vmem, ⟨19, _⟩ => ⟨S5000x133, .f32⟩
  | .local _ .vmem, ⟨20, _⟩ => ⟨S5000x133, .f32⟩
  | .local _ .vmem, ⟨21, _⟩ => ⟨S1x133, .f32⟩
  | .local _ .vmem, ⟨22, _⟩ => ⟨S1x133, .f32⟩
  | .local _ .vmem, ⟨23, _⟩ => ⟨S1x133, .f32⟩
  | .local _ .vmem, ⟨24, _⟩ => ⟨S1x133, .f32⟩
  | .local _ .vmem, ⟨25, _⟩ => ⟨S1x133, .f32⟩
  | .local _ .vmem, ⟨26, _⟩ => ⟨S5000x133, .f32⟩
  | .local _ .vmem, ⟨27, _⟩ => ⟨S5000x133, .f32⟩
  | _, _ => ⟨S50000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_v51 : Ref sig .tc := ⟨.hbm, 80, rfl⟩
abbrev main_v52 : Ref sig .tc := ⟨.hbm, 81, rfl⟩
abbrev main_c_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_12 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_13 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_15 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x133 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S133x133 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x133 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x133 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x133 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x133 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x133 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x133 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x133 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x133 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x133 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S133x133 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x133 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x133 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x133 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x133 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x133 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x133 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x133 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x133_S5000x133_0_0 : ∀ a, (![0, 0] : Fin 2 → Nat) a + S5000x133.size a ≤ S5000x133.size a
  h_S5000x133 : 0 < S5000x133.numel
  bitsLt_bf16_f32 : FTy.bits .bf16 < FTy.bits .f32
  inb_S133x133_S133x133_0_0 : ∀ a, (![0, 0] : Fin 2 → Nat) a + S133x133.size a ≤ S133x133.size a
  h_S133x133 : 0 < S133x133.numel
  bcast_S1650000x1_S1650000x133_0_1 : S1650000x1.BroadcastsInDim S1650000x133 (![0, 1] : Fin 2 → Fin S1650000x133.rank)
  bcast_S_S50000x133 : S_.BroadcastsInDim S50000x133 (![] : Fin 0 → Fin S50000x133.rank)
  shapeCasts_S133_S1x133 : S133.ShapeCasts S1x133
  shapeCasts_S5000x133_S5000x133 : S5000x133.ShapeCasts S5000x133
  inb_S1x133_S1x133_0_0 : ∀ a, (![0, 0] : Fin 2 → Nat) a + S1x133.size a ≤ S1x133.size a
  h_S1x133 : 0 < S1x133.numel
  shapeCasts_S1x133_S1x133 : S1x133.ShapeCasts S1x133
  broadcasts_S1x133_S5000x133 : S1x133.Broadcasts S5000x133
  bcast_S_S2048x133 : S_.BroadcastsInDim S2048x133 (![] : Fin 0 → Fin S2048x133.rank)
  bcast_S50000_S50000x1_0 : S50000.BroadcastsInDim S50000x1 (![0] : Fin 1 → Fin S50000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x133_0_1 : S2048x1.BroadcastsInDim S2048x133 (![0, 1] : Fin 2 → Fin S2048x133.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x133_S133x133_S5000x133_1_0_0_1_n_n_wf : DotDims.WF S5000x133 S133x133 S5000x133 [1] [0] [0] [1] [] []
  gather_S50000x133_S1650000x1_S1650000x133_1_0_n_n_0_1_1133_wf : GatherDims.WF S50000x133 S1650000x1 S1650000x133 [1] [0] [] [0] [] 1 ![1, 133]
  scatter_S50000x133_S1650000x1_S1650000x133_1_0_0_1_wf : ScatterDims.WF S50000x133 S1650000x1 S1650000x133 [1] [0] [0] 1
  scatter_S2048x133_S50000x1_S50000x133_1_0_0_1_wf : ScatterDims.WF S2048x133 S50000x1 S50000x133 [1] [0] [0] 1
  scatter_S2048_S50000x1_S50000_n_0_0_1_wf : ScatterDims.WF S2048 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x133.size a ≤ S50000x133.size a
  hwx0_0 : ∀ i : grid0.Coords, EltTy.bits .f32 = 32 ∨ (Rect.block (s := S50000x133) S5000x133.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S133x133.size a ≤ S133x133.size a
  hwx0_1 : ∀ i : grid0.Coords, EltTy.bits .f32 = 32 ∨ (Rect.block (s := S133x133) S133x133.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x133.size a ≤ S50000x133.size a
  hwx0_2 : ∀ i : grid0.Coords, EltTy.bits .f32 = 32 ∨ (Rect.block (s := S50000x133) S5000x133.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x133.size a ≤ S50000x133.size a
  hwx1_0 : ∀ i : grid1.Coords, EltTy.bits .f32 = 32 ∨ (Rect.block (s := S50000x133) S5000x133.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x133.size a ≤ S1x133.size a
  hwx1_1 : ∀ i : grid1.Coords, EltTy.bits .f32 = 32 ∨ (Rect.block (s := S1x133) S1x133.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x133.size a ≤ S1x133.size a
  hwx1_2 : ∀ i : grid1.Coords, EltTy.bits .f32 = 32 ∨ (Rect.block (s := S1x133) S1x133.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x133.size a ≤ S1x133.size a
  hwx1_3 : ∀ i : grid1.Coords, EltTy.bits .f32 = 32 ∨ (Rect.block (s := S1x133) S1x133.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x133.size a ≤ S1x133.size a
  hwx1_4 : ∀ i : grid1.Coords, EltTy.bits .f32 = 32 ∨ (Rect.block (s := S1x133) S1x133.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x133.size a ≤ S1x133.size a
  hwx1_5 : ∀ i : grid1.Coords, EltTy.bits .f32 = 32 ∨ (Rect.block (s := S1x133) S1x133.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x133.size a ≤ S50000x133.size a
  hwx1_6 : ∀ i : grid1.Coords, EltTy.bits .f32 = 32 ∨ (Rect.block (s := S50000x133) S5000x133.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x133.size a ≤ S50000x133.size a
  hwx2_0 : ∀ i : grid2.Coords, EltTy.bits .f32 = 32 ∨ (Rect.block (s := S50000x133) S5000x133.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S133x133.size a ≤ S133x133.size a
  hwx2_1 : ∀ i : grid2.Coords, EltTy.bits .f32 = 32 ∨ (Rect.block (s := S133x133) S133x133.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x133.size a ≤ S50000x133.size a
  hwx2_2 : ∀ i : grid2.Coords, EltTy.bits .f32 = 32 ∨ (Rect.block (s := S50000x133) S5000x133.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x133.size a ≤ S50000x133.size a
  hwx3_0 : ∀ i : grid3.Coords, EltTy.bits .f32 = 32 ∨ (Rect.block (s := S50000x133) S5000x133.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x133.size a ≤ S1x133.size a
  hwx3_1 : ∀ i : grid3.Coords, EltTy.bits .f32 = 32 ∨ (Rect.block (s := S1x133) S1x133.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x133.size a ≤ S1x133.size a
  hwx3_2 : ∀ i : grid3.Coords, EltTy.bits .f32 = 32 ∨ (Rect.block (s := S1x133) S1x133.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x133.size a ≤ S1x133.size a
  hwx3_3 : ∀ i : grid3.Coords, EltTy.bits .f32 = 32 ∨ (Rect.block (s := S1x133) S1x133.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x133.size a ≤ S1x133.size a
  hwx3_4 : ∀ i : grid3.Coords, EltTy.bits .f32 = 32 ∨ (Rect.block (s := S1x133) S1x133.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x133.size a ≤ S1x133.size a
  hwx3_5 : ∀ i : grid3.Coords, EltTy.bits .f32 = 32 ∨ (Rect.block (s := S1x133) S1x133.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x133.size a ≤ S50000x133.size a
  hwx3_6 : ∀ i : grid3.Coords, EltTy.bits .f32 = 32 ∨ (Rect.block (s := S50000x133) S5000x133.size (cc3_transform_6 i) (hinb3_6 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x133_S133x133_S5000x133_1_0_0_1_n_n : DotDims S5000x133 S133x133 S5000x133 where
  lhsContracting := [1]
  rhsContracting := [0]
  lhsNonContracting := [0]
  rhsNonContracting := [1]
  lhsBatch := []
  rhsBatch := []
  wf := dot_S5000x133_S133x133_S5000x133_1_0_0_1_n_n_wf
def gather_S50000x133_S1650000x1_S1650000x133_1_0_n_n_0_1_1133 : GatherDims S50000x133 S1650000x1 S1650000x133 where
  offsetDims := [1]
  collapsedSliceDims := [0]
  operandBatchingDims := []
  startIndicesBatchingDims := []
  startIndexMap := [0]
  indexVectorDim := 1
  sliceSizes := ![1, 133]
  wf := gather_S50000x133_S1650000x1_S1650000x133_1_0_n_n_0_1_1133_wf
def scatter_S50000x133_S1650000x1_S1650000x133_1_0_0_1 : ScatterDims S50000x133 S1650000x1 S1650000x133 where
  updateWindowDims := [1]
  insertedWindowDims := [0]
  scatterDimsToOperandDims := [0]
  indexVectorDim := 1
  wf := scatter_S50000x133_S1650000x1_S1650000x133_1_0_0_1_wf
def scatter_S2048x133_S50000x1_S50000x133_1_0_0_1 : ScatterDims S2048x133 S50000x1 S50000x133 where
  updateWindowDims := [1]
  insertedWindowDims := [0]
  scatterDimsToOperandDims := [0]
  indexVectorDim := 1
  wf := scatter_S2048x133_S50000x1_S50000x133_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf

abbrev win0_0 : Pipeline.Window sig grid0 :=
  Pipeline.Window.ofSpec (Memref.whole main_arg0) S5000x133.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S133x133.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x133.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x133.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x133.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x133.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x133.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x133.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x133.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S5000x133.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S5000x133.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S133x133.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x133.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x133.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x133.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x133.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x133.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S1x133.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S5000x133.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x133 : Shape := ⟨2, ![50000, 133]⟩
abbrev S2x1600000 : Shape := ⟨2, ![2, 1600000]⟩
abbrev S50000 : Shape := ⟨1, ![50000]⟩
abbrev S133x133 : Shape := ⟨2, ![133, 133]⟩
abbrev S133 : Shape := ⟨1, ![133]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x133 : Shape := ⟨2, ![1650000, 133]⟩
abbrev S1x133 : Shape := ⟨2, ![1, 133]⟩
abbrev S2048x133 : Shape := ⟨2, ![2048, 133]⟩
abbrev S50000x1 : Shape := ⟨2, ![50000, 1]⟩
abbrev S2048 : Shape := ⟨1, ![2048]⟩
abbrev S2048x1 : Shape := ⟨2, ![2048, 1]⟩

abbrev nBuf : Space → Nat
  | .hbm => 185
  | .vmem => 0
  | .smem => 0
  | _ => 0

abbrev hbmTy0_0 (i : Nat) : BufTy := match i % 128 with
  | 0 => ⟨S50000x133, .f32⟩
  | 1 => ⟨S2x1600000, .i32⟩
  | 2 => ⟨S50000, .i32⟩
  | 3 => ⟨S133x133, .f32⟩
  | 4 => ⟨S133, .f32⟩
  | 5 => ⟨S133x133, .f32⟩
  | 6 => ⟨S133, .f32⟩
  | 7 => ⟨S133, .f32⟩
  | 8 => ⟨S133, .f32⟩
  | 9 => ⟨S133, .f32⟩
  | 10 => ⟨S133, .f32⟩
  | 11 => ⟨S133, .f32⟩
  | 12 => ⟨S133, .f32⟩
  | 13 => ⟨S133, .f32⟩
  | 14 => ⟨S133, .f32⟩
  | 15 => ⟨S1x1600000, .i32⟩
  | 16 => ⟨S1600000, .i32⟩
  | 17 => ⟨S1x1600000, .i32⟩
  | 18 => ⟨S1600000, .i32⟩
  | 19 => ⟨S50000x133, .f32⟩
  | 20 => ⟨S50000, .i32⟩
  | 21 => ⟨S1650000, .i32⟩
  | 22 => ⟨S1650000, .i32⟩
  | 23 => ⟨S_, .f32⟩
  | 24 => ⟨S1650000, .f32⟩
  | 25 => ⟨S_, .f32⟩
  | 26 => ⟨S50000, .f32⟩
  | 27 => ⟨S1650000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S1650000, .i32⟩
  | 39 => ⟨S1650000, .i1⟩
  | 40 => ⟨S_, .i32⟩
  | 41 => ⟨S1650000, .i32⟩
  | 42 => ⟨S1650000, .i32⟩
  | 43 => ⟨S1650000, .i32⟩
  | 44 => ⟨S1650000x1, .i32⟩
  | 45 => ⟨S1650000, .f32⟩
  | 46 => ⟨S_, .i32⟩
  | 47 => ⟨S1650000, .i32⟩
  | 48 => ⟨S1650000, .i1⟩
  | 49 => ⟨S_, .i32⟩
  | 50 => ⟨S1650000, .i32⟩
  | 51 => ⟨S1650000, .i32⟩
  | 52 => ⟨S1650000, .i32⟩
  | 53 => ⟨S1650000x1, .i32⟩
  | 54 => ⟨S1650000, .f32⟩
  | 55 => ⟨S1650000, .f32⟩
  | 56 => ⟨S_, .i32⟩
  | 57 => ⟨S1650000, .i32⟩
  | 58 => ⟨S1650000, .i1⟩
  | 59 => ⟨S_, .i32⟩
  | 60 => ⟨S1650000, .i32⟩
  | 61 => ⟨S1650000, .i32⟩
  | 62 => ⟨S1650000, .i32⟩
  | 63 => ⟨S1650000x1, .i32⟩
  | 64 => ⟨S1650000x133, .f32⟩
  | 65 => ⟨S1650000x1, .f32⟩
  | 66 => ⟨S1650000x133, .f32⟩
  | 67 => ⟨S1650000x133, .f32⟩
  | 68 => ⟨S_, .f32⟩
  | 69 => ⟨S50000x133, .f32⟩
  | 70 => ⟨S1650000x1, .i32⟩
  | 71 => ⟨S50000x133, .f32⟩
  | 72 => ⟨S1x133, .f32⟩
  | 73 => ⟨S50000x133, .f32⟩
  | 74 => ⟨S50000x133, .f32⟩
  | 75 => ⟨S_, .f32⟩
  | 76 => ⟨S50000x133, .f32⟩
  | 77 => ⟨S50000x133, .f32⟩
  | 78 => ⟨S1x133, .f32⟩
  | 79 => ⟨S50000x133, .f32⟩
  | 80 => ⟨S50000x133, .f32⟩
  | 81 => ⟨S_, .f32⟩
  | 82 => ⟨S133, .f32⟩
  | 83 => ⟨S133, .f32⟩
  | 84 => ⟨S133, .f32⟩
  | 85 => ⟨S1x133, .f32⟩
  | 86 => ⟨S50000x133, .f32⟩
  | 87 => ⟨S50000x133, .f32⟩
  | 88 => ⟨S1x133, .f32⟩
  | 89 => ⟨S50000x133, .f32⟩
  | 90 => ⟨S50000x133, .f32⟩
  | 91 => ⟨S1x133, .f32⟩
  | 92 => ⟨S50000x133, .f32⟩
  | 93 => ⟨S50000x133, .f32⟩
  | 94 => ⟨S50000x133, .f32⟩
  | 95 => ⟨S50000, .i32⟩
  | 96 => ⟨S1650000, .i32⟩
  | 97 => ⟨S1650000, .i32⟩
  | 98 => ⟨S_, .f32⟩
  | 99 => ⟨S1650000, .f32⟩
  | 100 => ⟨S_, .f32⟩
  | 101 => ⟨S50000, .f32⟩
  | 102 => ⟨S1650000x1, .i32⟩
  | 103 => ⟨S50000, .f32⟩
  | 104 => ⟨S_, .f32⟩
  | 105 => ⟨S50000, .f32⟩
  | 106 => ⟨S50000, .i1⟩
  | 107 => ⟨S50000, .f32⟩
  | 108 => ⟨S_, .f32⟩
  | 109 => ⟨S_, .f32⟩
  | 110 => ⟨S50000, .f32⟩
  | 111 => ⟨S50000, .f32⟩
  | 112 => ⟨S_, .i32⟩
  | 113 => ⟨S1650000, .i32⟩
  | 114 => ⟨S1650000, .i1⟩
  | 115 => ⟨S_, .i32⟩
  | 116 => ⟨S1650000, .i32⟩
  | 117 => ⟨S1650000, .i32⟩
  | 118 => ⟨S1650000, .i32⟩
  | 119 => ⟨S1650000x1, .i32⟩
  | 120 => ⟨S1650000, .f32⟩
  | 121 => ⟨S_, .i32⟩
  | 122 => ⟨S1650000, .i32⟩
  | 123 => ⟨S1650000, .i1⟩
  | 124 => ⟨S_, .i32⟩
  | 125 => ⟨S1650000, .i32⟩
  | 126 => ⟨S1650000, .i32⟩
  | 127 => ⟨S1650000, .i32⟩
  | _ => ⟨S50000x133, .f32⟩

abbrev hbmTy0_1 (i : Nat) : BufTy := match i % 128 with
  | 0 => ⟨S1650000x1, .i32⟩
  | 1 => ⟨S1650000, .f32⟩
  | 2 => ⟨S1650000, .f32⟩
  | 3 => ⟨S_, .i32⟩
  | 4 => ⟨S1650000, .i32⟩
  | 5 => ⟨S1650000, .i1⟩
  | 6 => ⟨S_, .i32⟩
  | 7 => ⟨S1650000, .i32⟩
  | 8 => ⟨S1650000, .i32⟩
  | 9 => ⟨S1650000, .i32⟩
  | 10 => ⟨S1650000x1, .i32⟩
  | 11 => ⟨S1650000x133, .f32⟩
  | 12 => ⟨S1650000x1, .f32⟩
  | 13 => ⟨S1650000x133, .f32⟩
  | 14 => ⟨S1650000x133, .f32⟩
  | 15 => ⟨S_, .f32⟩
  | 16 => ⟨S50000x133, .f32⟩
  | 17 => ⟨S1650000x1, .i32⟩
  | 18 => ⟨S50000x133, .f32⟩
  | 19 => ⟨S1x133, .f32⟩
  | 20 => ⟨S50000x133, .f32⟩
  | 21 => ⟨S50000x133, .f32⟩
  | 22 => ⟨S_, .f32⟩
  | 23 => ⟨S50000x133, .f32⟩
  | 24 => ⟨S50000x133, .f32⟩
  | 25 => ⟨S1x133, .f32⟩
  | 26 => ⟨S50000x133, .f32⟩
  | 27 => ⟨S50000x133, .f32⟩
  | 28 => ⟨S_, .f32⟩
  | 29 => ⟨S133, .f32⟩
  | 30 => ⟨S133, .f32⟩
  | 31 => ⟨S133, .f32⟩
  | 32 => ⟨S1x133, .f32⟩
  | 33 => ⟨S50000x133, .f32⟩
  | 34 => ⟨S50000x133, .f32⟩
  | 35 => ⟨S1x133, .f32⟩
  | 36 => ⟨S50000x133, .f32⟩
  | 37 => ⟨S50000x133, .f32⟩
  | 38 => ⟨S1x133, .f32⟩
  | 39 => ⟨S50000x133, .f32⟩
  | 40 => ⟨S50000x133, .f32⟩
  | 41 => ⟨S_, .f32⟩
  | 42 => ⟨S2048x133, .f32⟩
  | 43 => ⟨S50000x1, .i32⟩
  | 44 => ⟨S2048x133, .f32⟩
  | 45 => ⟨S_, .f32⟩
  | 46 => ⟨S50000, .f32⟩
  | 47 => ⟨S_, .f32⟩
  | 48 => ⟨S2048, .f32⟩
  | 49 => ⟨S50000x1, .i32⟩
  | 50 => ⟨S2048, .f32⟩
  | 51 => ⟨S_, .f32⟩
  | 52 => ⟨S2048, .f32⟩
  | 53 => ⟨S2048, .f32⟩
  | 54 => ⟨S2048x1, .f32⟩
  | 55 => ⟨S2048x133, .f32⟩
  | 56 => ⟨S2048x133, .f32⟩
  | _ => ⟨S50000x133, .f32⟩

abbrev hbmTy (i : Nat) : BufTy := match i / 128 with
  | 0 => hbmTy0_0 i
  | 1 => hbmTy0_1 i
  | _ => ⟨S50000x133, .f32⟩

abbrev bufTy : (tb : Table) → Fin (tcTables nBuf tb) → BufTy
  | .hbm, ⟨i, _⟩ => hbmTy i
  | _, _ => ⟨S50000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_10 : Ref sig .tc := ⟨.hbm, 98, rfl⟩
abbrev main_v67 : Ref sig .tc := ⟨.hbm, 99, rfl⟩
abbrev main_cst_11 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_call2_v0 : Ref sig .tc := ⟨.hbm, 109, rfl⟩
abbrev main_call2_v1 : Ref sig .tc := ⟨.hbm, 110, rfl⟩
abbrev main_v74 : Ref sig .tc := ⟨.hbm, 111, rfl⟩
abbrev main_c_14 : Ref sig .tc := ⟨.hbm, 112, rfl⟩
abbrev main_v75 : Ref sig .tc := ⟨.hbm, 113, rfl⟩
abbrev main_v76 : Ref sig .tc := ⟨.hbm, 114, rfl⟩
abbrev main_c_15 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_c_16 : Ref sig .tc := ⟨.hbm, 121, rfl⟩
abbrev main_v82 : Ref sig .tc := ⟨.hbm, 122, rfl⟩
abbrev main_v83 : Ref sig .tc := ⟨.hbm, 123, rfl⟩
abbrev main_c_17 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_18 : Ref sig .tc := ⟨.hbm, 131, rfl⟩
abbrev main_v90 : Ref sig .tc := ⟨.hbm, 132, rfl⟩
abbrev main_v91 : Ref sig .tc := ⟨.hbm, 133, rfl⟩
abbrev main_c_19 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_20 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_call3_cst : Ref sig .tc := ⟨.hbm, 150, rfl⟩
abbrev main_call3_v0 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_21 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_22 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_23 : Ref sig .tc := ⟨.hbm, 173, rfl⟩
abbrev main_v125 : Ref sig .tc := ⟨.hbm, 174, rfl⟩
abbrev main_cst_24 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_25 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x133_0_1 : S1650000x1.BroadcastsInDim S1650000x133 (![0, 1] : Fin 2 → Fin S1650000x133.rank)
  bcast_S_S50000x133 : S_.BroadcastsInDim S50000x133 (![] : Fin 0 → Fin S50000x133.rank)
  bcast_S133_S1x133_1 : S133.BroadcastsInDim S1x133 (![1] : Fin 1 → Fin S1x133.rank)
  bcast_S1x133_S50000x133_0_1 : S1x133.BroadcastsInDim S50000x133 (![0, 1] : Fin 2 → Fin S50000x133.rank)
  bcast_S_S133 : S_.BroadcastsInDim S133 (![] : Fin 0 → Fin S133.rank)
  bcast_S_S2048x133 : S_.BroadcastsInDim S2048x133 (![] : Fin 0 → Fin S2048x133.rank)
  bcast_S50000_S50000x1_0 : S50000.BroadcastsInDim S50000x1 (![0] : Fin 1 → Fin S50000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x133_0_1 : S2048x1.BroadcastsInDim S2048x133 (![0, 1] : Fin 2 → Fin S2048x133.rank)
  dot_S50000x133_S133x133_S50000x133_1_0_0_1_n_n_wf : DotDims.WF S50000x133 S133x133 S50000x133 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x133_S1650000x1_S1650000x133_1_0_n_n_0_1_1133_wf : GatherDims.WF S50000x133 S1650000x1 S1650000x133 [1] [0] [] [0] [] 1 ![1, 133]
  scatter_S50000x133_S1650000x1_S1650000x133_1_0_0_1_wf : ScatterDims.WF S50000x133 S1650000x1 S1650000x133 [1] [0] [0] 1
  scatter_S2048x133_S50000x1_S50000x133_1_0_0_1_wf : ScatterDims.WF S2048x133 S50000x1 S50000x133 [1] [0] [0] 1
  scatter_S2048_S50000x1_S50000_n_0_0_1_wf : ScatterDims.WF S2048 S50000x1 S50000 [] [0] [0] 1

variable [Facts₀]

def dot_S50000x133_S133x133_S50000x133_1_0_0_1_n_n : DotDims S50000x133 S133x133 S50000x133 where
  lhsContracting := [1]
  rhsContracting := [0]
  lhsNonContracting := [0]
  rhsNonContracting := [1]
  lhsBatch := []
  rhsBatch := []
  wf := dot_S50000x133_S133x133_S50000x133_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x133_S1650000x1_S1650000x133_1_0_n_n_0_1_1133 : GatherDims S50000x133 S1650000x1 S1650000x133 where
  offsetDims := [1]
  collapsedSliceDims := [0]
  operandBatchingDims := []
  startIndicesBatchingDims := []
  startIndexMap := [0]
  indexVectorDim := 1
  sliceSizes := ![1, 133]
  wf := gather_S50000x133_S1650000x1_S1650000x133_1_0_n_n_0_1_1133_wf
def scatter_S50000x133_S1650000x1_S1650000x133_1_0_0_1 : ScatterDims S50000x133 S1650000x1 S1650000x133 where
  updateWindowDims := [1]
  insertedWindowDims := [0]
  scatterDimsToOperandDims := [0]
  indexVectorDim := 1
  wf := scatter_S50000x133_S1650000x1_S1650000x133_1_0_0_1_wf
def scatter_S2048x133_S50000x1_S50000x133_1_0_0_1 : ScatterDims S2048x133 S50000x1 S50000x133 where
  updateWindowDims := [1]
  insertedWindowDims := [0]
  scatterDimsToOperandDims := [0]
  indexVectorDim := 1
  wf := scatter_S2048x133_S50000x1_S50000x133_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf

class Facts : Prop extends Facts₀ where

variable [Facts]
-- ==== Proof.KernelRun.lean ====
/-
  The idealized kernel's run, with what its buffers hold at the end. @main is four TensorCore regions among stretches of
  host operations; core `c`'s buffer contents at the boundaries between them are a fold from the launch memory, and
  `W10 m ρ c` is the last of these: what every buffer holds after the last stretch. Every weakly fair execution ends with
  every buffer that outlives the regions at that last boundary's contents (`run_boundary`); in particular the result buffer
  ends at `W10 m ρ c` there, and each argument array as launched (`run`). What the last boundary holds at the result is read
  back, boundary by boundary, in the modules that import this one.
-/
import proofs.«153986_j13073880449158_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and in its final
    state every buffer that is not scoped to a region holds the last boundary's contents: the segments' chain ends at the
    thread state "every such buffer at `W10 m ρ c`", which is read against the final memory. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The result buffer ends at the last boundary's contents, the argument arrays as launched: the result's buffer outlives
    the regions, and no host operation and no region writes an argument, so the fold at an argument's buffer walks back to
    the launch memory. -/
theorem run : θ_run defs (onTc (τ := τ) (main (F := F))) ⟨m, fun _ => 0, ρ⟩ (fun r => ∀ c : Dev nD,
      r.2.mem ((c.tc : Thread nD τ).loc main_v81) = W10 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun s h c =>
      ⟨h c _ (mem_uc main_v81 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)
    (run_boundary m ρ)

end Cert.KernelIdeal.Result

end
-- ==== Proof.Layer.lean ====
/-
  What one layer of the network computes, index by index on the extended reals.

  A node matrix has 50000 rows (nodes) and 133 columns (features). A layer first multiplies it by a 133 × 133 weight
  matrix (`dense`: entry (n, j) is the sum over k of x(n, k) · w(k, j)); the products are then combined along the edges of the
  graph by host operations that both programs share and that are never opened here; and then every entry passes through the
  bias, the rectifier and the normalisation with the layer's five feature vectors (`normalise`: entry (n, j) is
  ((max (h(n, j) + b j) 0 − μ j) · rsqrt (v j + ε)) · g j + β j). The two literals, zero and ε, stay the words the programs
  print; neither is evaluated. Nothing here needs a finite input: the two programs apply these same operations in the same
  order, and the one law between them (a matrix product done ten row blocks at a time is the matrix product) regroups
  nothing inside a sum.
-/
import Idealize.ShloMosaic.PureOps.Ideal
import Idealize.ShloMosaic.PureOps.Ideal.Laws
import Idealize.ShloMosaic.Lib.ValueIdx

noncomputable section

namespace Cert.Layer

open Idealize.ShloMosaic

/-- A node matrix: 50000 nodes, 133 features. -/
abbrev Nodes : Shape := ⟨2, ![50000, 133]⟩
/-- A weight matrix. -/
abbrev Weights : Shape := ⟨2, ![133, 133]⟩
/-- A feature vector. -/
abbrev Feat : Shape := ⟨1, ![133]⟩
/-- A feature vector laid out as one row. -/
abbrev FeatRow : Shape := ⟨2, ![1, 133]⟩

/-- Entry `k` of node `i 0`'s row. -/
abbrev inRow (i : Nodes.Idx) (k : Fin 133) : Nodes.Idx := fun a => match a with
  | ⟨0, _⟩ => ⟨(i 0).val, (i 0).isLt⟩
  | ⟨1, _⟩ => ⟨k.val, k.isLt⟩
/-- Entry `k` of the weight matrix's column `i 1`. -/
abbrev inCol (i : Nodes.Idx) (k : Fin 133) : Weights.Idx := fun a => match a with
  | ⟨0, _⟩ => ⟨k.val, k.isLt⟩
  | ⟨1, _⟩ => ⟨(i 1).val, (i 1).isLt⟩
/-- The feature an entry of a node matrix belongs to. -/
abbrev feat (i : Nodes.Idx) : Feat.Idx := ValueIdx.ix1 (⟨(i 1).val, (i 1).isLt⟩ : Fin 133)

/-- The matrix product of a node matrix with a weight matrix. -/
def dense (x : Nodes.Idx → EReal) (w : Weights.Idx → EReal) : Nodes.Idx → EReal :=
  fun i => ∑ k : Fin 133, x (inRow i k) * w (inCol i k)

/-- Bias, rectifier, normalisation: `((max (h + b) 0 − μ) · rsqrt (v + ε)) · g + β`, feature by feature. -/
def normalise (h : Nodes.Idx → EReal) (b g β μ v : Feat.Idx → EReal) : Nodes.Idx → EReal :=
  fun i => (max (h i + b (feat i)) (Ideal.ofBits .f32 0x00000000#32) - μ (feat i))
      * Ideal.rsqrt (v (feat i) + Ideal.ofBits .f32 0x3727C5AC#32) * g (feat i) + β (feat i)

/-- The entry of a feature vector laid out as one row that an entry of a node matrix belongs to. -/
abbrev featRow (i : Nodes.Idx) : FeatRow.Idx :=
  ValueIdx.ix2 (0 : Fin 1) (⟨(i 1).val, (i 1).isLt⟩ : Fin 133)

/-- The same with the five feature vectors laid out as rows, as the kernel's region receives them. -/
def normaliseRows (h : Nodes.Idx → EReal) (b g β μ v : FeatRow.Idx → EReal) : Nodes.Idx → EReal :=
  fun i => (max (h i + b (featRow i)) (Ideal.ofBits .f32 0x00000000#32) - μ (featRow i))
      * Ideal.rsqrt (v (featRow i) + Ideal.ofBits .f32 0x3727C5AC#32) * g (featRow i) + β (featRow i)

end Cert.Layer

end
-- ==== Proof.Dense0.lean ====
/-
  Region 0 of the idealized kernel: the matrix product, ten row blocks at a time.

  Grid point t loads rows 5000·t … 5000·t + 4999 of the node matrix and the whole weight matrix, multiplies them into a zero
  accumulator and stores the 5000 × 133 product; the change of float format before the product is the identity on the extended
  reals. Entry (p, q) of that block is the sum over k of x(5000·t + p, k) · w(k, q): the entry of the full product at row
  5000·t + p. The ten blocks tile the 50000 rows, so after the region the output array is the product of the two arrays as the
  region found them, `Layer.dense` — whatever those arrays are: the region-entry contents stay a parameter `V`.
-/
import proofs.«153986_j13073880449158_2_alg».proof.Proof.Gen.KernelIdeal.Frame
import proofs.«153986_j13073880449158_2_alg».proof.Proof.Layer
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen Idealize.ShloMosaic Idealize.ShloMosaic.TcCoe Idealize.SL.Sem
open Idealize.ShloMosaic.ValueIdx
open Idealize.ShloMosaic.Pipeline (Dat)
open Cert

/-! ## The product of one block with the weights, at an entry -/

/-- The left operand's index at output entry `i` and contraction index `q`: row `i 0` … -/
theorem lhs_row (i : S5000x133.Idx) (q : dot_S5000x133_S133x133_S5000x133_1_0_0_1_n_n.contr.Idx) :
    (dot_S5000x133_S133x133_S5000x133_1_0_0_1_n_n.lhsIdx i q 0).val = (i 0).val := by
  unfold DotDims.lhsIdx
  rw [dif_neg (show ¬(0 : Fin S5000x133.rank) ∈ dot_S5000x133_S133x133_S5000x133_1_0_0_1_n_n.lhsBatch by decide), dif_pos (show (0 : Fin S5000x133.rank) ∈ dot_S5000x133_S133x133_S5000x133_1_0_0_1_n_n.lhsNonContracting by decide)]
  rfl
/-- … column the contraction index. -/
theorem lhs_col (i : S5000x133.Idx) (q : dot_S5000x133_S133x133_S5000x133_1_0_0_1_n_n.contr.Idx) :
    (dot_S5000x133_S133x133_S5000x133_1_0_0_1_n_n.lhsIdx i q 1).val = (q ⟨0, by decide⟩).val :=
  dot_S5000x133_S133x133_S5000x133_1_0_0_1_n_n.lhsIdx_val_of_single rfl i q
/-- The right operand's: row the contraction index … -/
theorem rhs_row (i : S5000x133.Idx) (q : dot_S5000x133_S133x133_S5000x133_1_0_0_1_n_n.contr.Idx) :
    (dot_S5000x133_S133x133_S5000x133_1_0_0_1_n_n.rhsIdx i q 0).val = (q ⟨0, by decide⟩).val :=
  dot_S5000x133_S133x133_S5000x133_1_0_0_1_n_n.rhsIdx_val_of_single rfl i q
/-- … column `i 1`. -/
theorem rhs_col (i : S5000x133.Idx) (q : dot_S5000x133_S133x133_S5000x133_1_0_0_1_n_n.contr.Idx) :
    (dot_S5000x133_S133x133_S5000x133_1_0_0_1_n_n.rhsIdx i q 1).val = (i 1).val := by
  unfold DotDims.rhsIdx
  rw [dif_neg (show ¬(1 : Fin S133x133.rank) ∈ dot_S5000x133_S133x133_S5000x133_1_0_0_1_n_n.rhsBatch by decide), dif_pos (show (1 : Fin S133x133.rank) ∈ dot_S5000x133_S133x133_S5000x133_1_0_0_1_n_n.rhsNonContracting by decide)]
  rfl

/-- The body's stored value at entry (p, q) of the block: the sum over k of the block's (p, k) times the weights' (k, q). The
    zero accumulator adds nothing, and the narrowing of both operands' format is the identity here. -/
theorem product_block (xb : Vec Ideal S5000x133 .f32) (w : Vec Ideal S133x133 .f32) (p : Fin 5000) (q : Fin 133) :
    k0_pay1 (F := Ideal) xb w (ix2 p q) = ∑ k : Fin 133, xb (ix2 p k) * w (ix2 k q) := by
  unfold k0_pay1
  show FloatOps.matmul (F := Ideal) dot_S5000x133_S133x133_S5000x133_1_0_0_1_n_n none (truncf (F := Ideal) .bf16 xb bitsLt_bf16_f32) (truncf (F := Ideal) .bf16 w bitsLt_bf16_f32) (constant (F := Ideal) S5000x133 .f32 0x00000000#32) (ix2 p q) = _
  rw [Ideal.matmul_constant_zero_apply, ← Equiv.sum_comp (ValueIdx.contrEquiv1 dot_S5000x133_S133x133_S5000x133_1_0_0_1_n_n 133 rfl rfl).symm]
  refine Finset.sum_congr rfl fun k _ => ?_
  have hk := ValueIdx.contrEquiv1_symm_val dot_S5000x133_S133x133_S5000x133_1_0_0_1_n_n 133 rfl rfl k
  have el : dot_S5000x133_S133x133_S5000x133_1_0_0_1_n_n.lhsIdx (ix2 p q) ((ValueIdx.contrEquiv1 dot_S5000x133_S133x133_S5000x133_1_0_0_1_n_n 133 rfl rfl).symm k) = ix2 p k := funext fun a => Fin.ext (by
    match a with
    | ⟨0, _⟩ => exact lhs_row _ _
    | ⟨1, _⟩ => exact (lhs_col _ _).trans hk)
  have er : dot_S5000x133_S133x133_S5000x133_1_0_0_1_n_n.rhsIdx (ix2 p q) ((ValueIdx.contrEquiv1 dot_S5000x133_S133x133_S5000x133_1_0_0_1_n_n 133 rfl rfl).symm k) = ix2 k q := funext fun a => Fin.ext (by
    match a with
    | ⟨0, _⟩ => exact (rhs_row _ _).trans hk
    | ⟨1, _⟩ => exact rhs_col _ _)
  rw [el, er]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten grid points: the node matrix's block and the output's block are block `t` of the
    rows, at column block 0; the weight matrix is one block. -/
theorem index_maps : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point `t` writes back is block `t` of the product of the arrays the region finds. -/
theorem written (c : Dev nD) (t : Fin cfg0.N) :
    (dat0 V c).flushed 2 t = ((cfg0.win 2).blk t).view.read (Elt Ideal) (Layer.dense (V c main_arg0) (V c main_arg3)) := by
  show (cfg0.win 2).cut (grid0.coords t) ((dat0 V c).after 2 t) = _
  rw [after0_2]
  unfold out0_2
  rw [View.canon_unit_zero origin]
  simp only [View.ld_unit_zero (S := S5000x133) origin, View.ld_unit_zero (S := S133x133) origin]
  obtain ⟨e0, e1, e2, e3, e4, e5⟩ := index_maps t
  funext j
  obtain ⟨p, q, rfl⟩ : ∃ (p : Fin 5000) (q : Fin 133), j = ix2 p q := ⟨j 0, j 1, eq_ix2 j⟩
  show k0_pay1 (iblk0 V c 0 t) (iblk0 V c 1 t) (ix2 p q)
    = Layer.dense (V c main_arg0) (V c main_arg3) (((cfg0.win 2).blk t).view.emb (ix2 p q))
  refine (product_block (iblk0 V c 0 t) (iblk0 V c 1 t) p q).trans ?_
  refine Finset.sum_congr rfl fun k _ => ?_
  have hx : iblk0 V c 0 t (ix2 p k) = V c main_arg0 (Layer.inRow (((cfg0.win 2).blk t).view.emb (ix2 p q)) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; rw [e0]
    | ⟨1, _⟩ => show win0_0.index t (1 : Fin 2) * 133 + 1 * k.val = k.val; rw [e1]; omega
  have hw : iblk0 V c 1 t (ix2 k q) = V c main_arg3 (Layer.inCol (((cfg0.win 2).blk t).view.emb (ix2 p q)) k) := by
    show V c main_arg3 (((cfg0.win 1).blk t).view.emb (ix2 k q)) = _
    refine congrArg (V c main_arg3) (funext fun a => Fin.ext ?_)
    match a with
    | ⟨0, _⟩ => show win0_1.index t (0 : Fin 2) * 133 + 1 * k.val = k.val; rw [e2]; omega
    | ⟨1, _⟩ => show win0_1.index t (1 : Fin 2) * 133 + 1 * q.val = win0_2.index t (1 : Fin 2) * 133 + 1 * q.val; rw [e3, e4]
  rw [hx, hw]

/-- An index of the output array is in point `t`'s block iff each coordinate is in the block's range on its axis. -/
theorem mem_block (t : Fin cfg0.N) (i : S50000x133.Idx) :
    i ∈ ((cfg0.win 2).blk t).view.set ↔ ∀ a : Fin 2, win0_2.index t a * S5000x133.size a ≤ (i a).val ∧ (i a).val < win0_2.index t a * S5000x133.size a + S5000x133.size a := by
  show i ∈ ((View.whole main_v30).slice (win0_2.rect t)).set ↔ _
  rw [View.set_slice_whole, Rect.mem_set_unit]
  exact Iff.rfl

/-- Every entry of the output array is in some point's block: row r in the block of point r / 5000. -/
theorem covered (i : S50000x133.Idx) :
    ∃ t : Fin cfg0.N, (cfg0.win 2).flush t = true ∧ i ∈ ((cfg0.win 2).blk t).view.set := by
  have hi0 : (i 0).val < 50000 := (i 0).isLt
  have hi1 : (i 1).val < 133 := (i 1).isLt
  have hN : grid0.N = 10 := N_0
  have ht : (i 0).val / 5000 < cfg0.N := by show _ < grid0.N; rw [hN]; omega
  obtain ⟨e0, e1, e2, e3, e4, e5⟩ := index_maps ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win0_2.index ⟨(i 0).val / 5000, ht⟩ (1 : Fin 2) * 133 ≤ (i 1).val ∧ (i 1).val < win0_2.index ⟨(i 0).val / 5000, ht⟩ (1 : Fin 2) * 133 + 133
    rw [e4]; omega

/-- After the region its output array is the product of the node matrix and the weight matrix it found. -/
theorem final (c : Dev nD) : (dat0 V c).arrAt 2 cfg0.N = Layer.dense (V c main_arg0) (V c main_arg3) :=
  (dat0 V c).arrAt_eq_of_cover 2 _ (fun t _ => written V c t) covered

end Cert.KernelIdeal.Dense0

end
-- ==== Proof.Norm1.lean ====
/-
  Region 1 of the idealized kernel: bias, rectifier and normalisation, ten row blocks at a time.

  Grid point t loads rows 5000·t … 5000·t + 4999 of the aggregated node matrix and the layer's five feature vectors, each laid
  out as one row, and stores ((max (h + b) 0 − μ) · rsqrt (v + ε)) · g + β, every feature vector read at the entry's column.
  Every operation is entry by entry, so entry (p, q) of block t is that formula at row 5000·t + p of the array; the ten blocks
  tile the 50000 rows, and after the region the output array is `Layer.normaliseRows` of the arrays the region found, which
  stay a parameter `V`.
-/
import proofs.«153986_j13073880449158_2_alg».proof.Proof.Gen.KernelIdeal.Frame
import proofs.«153986_j13073880449158_2_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Norm1

open Cert.KernelIdeal Cert.KernelIdeal.Gen Idealize.ShloMosaic Idealize.ShloMosaic.TcCoe Idealize.SL.Sem
open Idealize.ShloMosaic.ValueIdx
open Idealize.ShloMosaic.Pipeline (Dat)
open Cert

/-! ## The body's stored value at an entry -/

/-- Entry (p, q) of the block the body stores: the formula at the block's (p, q) and each row vector's (0, q). The casts of
    a vector to its own shape are the identity, and a row broadcast down the block reads the row at the entry's column. -/
theorem normalise_block (h : Vec Ideal S5000x133 .f32) (b rv rm g beta : Vec Ideal S1x133 .f32) (p : Fin 5000) (q : Fin 133) :
    k1_pay1 (F := Ideal) h b rv rm g beta (ix2 p q)
      = (max (h (ix2 p q) + b (ix2 (0 : Fin 1) q)) (Ideal.ofBits .f32 0x00000000#32) - rm (ix2 (0 : Fin 1) q))
          * Ideal.rsqrt (rv (ix2 (0 : Fin 1) q) + Ideal.ofBits .f32 0x3727C5AC#32) * g (ix2 (0 : Fin 1) q) + beta (ix2 (0 : Fin 1) q) := by
  unfold k1_pay1
  simp only [shapeCast_self]
  show (max (h (ix2 p q) + broadcastTo S5000x133 b broadcasts_S1x133_S5000x133 (ix2 p q)) (Ideal.ofBits .f32 0x00000000#32)
          - broadcastTo S5000x133 rm broadcasts_S1x133_S5000x133 (ix2 p q))
        * broadcastTo S5000x133 (rsqrt (addf rv (broadcast S1x133 (Scalar.ofBits (F := Ideal) .f32 0x3727C5AC#32)))) broadcasts_S1x133_S5000x133 (ix2 p q)
        * broadcastTo S5000x133 g broadcasts_S1x133_S5000x133 (ix2 p q)
        + broadcastTo S5000x133 beta broadcasts_S1x133_S5000x133 (ix2 p q) = _
  rw [broadcastTo_1b_ab_apply, broadcastTo_1b_ab_apply, broadcastTo_1b_ab_apply, broadcastTo_1b_ab_apply, broadcastTo_1b_ab_apply]
  rfl

/-- The formula depends on its six entries only. -/
theorem formula_congr {a a' b b' μ μ' v v' g g' s s' : EReal} (ha : a = a') (hb : b = b') (hμ : μ = μ') (hv : v = v')
    (hg : g = g') (hs : s = s') :
    (max (a + b) (Ideal.ofBits .f32 0x00000000#32) - μ) * Ideal.rsqrt (v + Ideal.ofBits .f32 0x3727C5AC#32) * g + s
      = (max (a' + b') (Ideal.ofBits .f32 0x00000000#32) - μ') * Ideal.rsqrt (v' + Ideal.ofBits .f32 0x3727C5AC#32) * g' + s' := by
  subst ha hb hμ hv hg hs; rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten grid points: the node matrix's block and the output's block are block `t` of the
    rows, at column block 0. -/
theorem index_maps : ∀ t : Fin cfg1.N,
    win1_0.index t (0 : Fin 2) = win1_6.index t (0 : Fin 2) ∧ win1_0.index t (1 : Fin 2) = 0
    ∧ win1_6.index t (1 : Fin 2) = 0 ∧ win1_6.index t (0 : Fin 2) = t.val :=
  (by decide +kernel : ∀ t : Fin grid1.N, _)
/-- Each of the five row vectors is one block. -/
theorem hrow : ∀ t : Fin cfg1.N,
    (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0) :=
  (by decide +kernel : ∀ t : Fin grid1.N, _)

set_option maxHeartbeats 1000000 in
/-- What point `t` writes back is block `t` of the normalisation of the arrays the region finds. -/
theorem written (c : Dev nD) (t : Fin cfg1.N) :
    (dat1 V c).flushed 6 t = ((cfg1.win 6).blk t).view.read (Elt Ideal)
      (Layer.normaliseRows (V c main_v43) (V c main_v44) (V c main_v45) (V c main_v46) (V c main_v47) (V c main_v48)) := by
  show (cfg1.win 6).cut (grid1.coords t) ((dat1 V c).after 6 t) = _
  rw [after1_6]
  unfold out1_6
  rw [View.canon_unit_zero origin]
  simp only [View.ld_unit_zero (S := S5000x133) origin, View.ld_unit_zero (S := S1x133) origin]
  obtain ⟨e0, e1, e2, e3⟩ := index_maps t
  funext j
  obtain ⟨p, q, rfl⟩ : ∃ (p : Fin 5000) (q : Fin 133), j = ix2 p q := ⟨j 0, j 1, eq_ix2 j⟩
  show k1_pay1 (iblk1 V c 0 t) (iblk1 V c 1 t) (iblk1 V c 5 t) (iblk1 V c 4 t) (iblk1 V c 2 t) (iblk1 V c 3 t) (ix2 p q)
    = Layer.normaliseRows (V c main_v43) (V c main_v44) (V c main_v45) (V c main_v46) (V c main_v47) (V c main_v48) (((cfg1.win 6).blk t).view.emb (ix2 p q))
  refine (normalise_block (iblk1 V c 0 t) (iblk1 V c 1 t) (iblk1 V c 5 t) (iblk1 V c 4 t) (iblk1 V c 2 t) (iblk1 V c 3 t) p q).trans ?_
  have h0 : iblk1 V c 0 t (ix2 p q) = V c main_v43 (((cfg1.win 6).blk t).view.emb (ix2 p q)) := by
    show V c main_v43 (((cfg1.win 0).blk t).view.emb (ix2 p q)) = _
    refine congrArg (V c main_v43) (funext fun a => Fin.ext ?_)
    match a with
    | ⟨0, _⟩ => show win1_0.index t (0 : Fin 2) * 5000 + 1 * p.val = win1_6.index t (0 : Fin 2) * 5000 + 1 * p.val; rw [e0]
    | ⟨1, _⟩ => show win1_0.index t (1 : Fin 2) * 133 + 1 * q.val = win1_6.index t (1 : Fin 2) * 133 + 1 * q.val; rw [e1, e2]
  have h1 : iblk1 V c 1 t (ix2 (0 : Fin 1) q) = V c main_v44 (Layer.featRow (((cfg1.win 6).blk t).view.emb (ix2 p q))) := by
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * (0 : Fin 1).val = 0; rw [(hrow t).1.1]; rfl
    | ⟨1, _⟩ => show win1_1.index t (1 : Fin 2) * 133 + 1 * q.val = win1_6.index t (1 : Fin 2) * 133 + 1 * q.val; rw [(hrow t).1.2, e2]
  have h2 : iblk1 V c 2 t (ix2 (0 : Fin 1) q) = V c main_v45 (Layer.featRow (((cfg1.win 6).blk t).view.emb (ix2 p q))) := by
    show V c main_v45 (((cfg1.win 2).blk t).view.emb (ix2 (0 : Fin 1) q)) = _
    refine congrArg (V c main_v45) (funext fun a => Fin.ext ?_)
    match a with
    | ⟨0, _⟩ => show win1_2.index t (0 : Fin 2) * 1 + 1 * (0 : Fin 1).val = 0; rw [(hrow t).2.1.1]; rfl
    | ⟨1, _⟩ => show win1_2.index t (1 : Fin 2) * 133 + 1 * q.val = win1_6.index t (1 : Fin 2) * 133 + 1 * q.val; rw [(hrow t).2.1.2, e2]
  have h3 : iblk1 V c 3 t (ix2 (0 : Fin 1) q) = V c main_v46 (Layer.featRow (((cfg1.win 6).blk t).view.emb (ix2 p q))) := by
    show V c main_v46 (((cfg1.win 3).blk t).view.emb (ix2 (0 : Fin 1) q)) = _
    refine congrArg (V c main_v46) (funext fun a => Fin.ext ?_)
    match a with
    | ⟨0, _⟩ => show win1_3.index t (0 : Fin 2) * 1 + 1 * (0 : Fin 1).val = 0; rw [(hrow t).2.2.1.1]; rfl
    | ⟨1, _⟩ => show win1_3.index t (1 : Fin 2) * 133 + 1 * q.val = win1_6.index t (1 : Fin 2) * 133 + 1 * q.val; rw [(hrow t).2.2.1.2, e2]
  have h4 : iblk1 V c 4 t (ix2 (0 : Fin 1) q) = V c main_v47 (Layer.featRow (((cfg1.win 6).blk t).view.emb (ix2 p q))) := by
    show V c main_v47 (((cfg1.win 4).blk t).view.emb (ix2 (0 : Fin 1) q)) = _
    refine congrArg (V c main_v47) (funext fun a => Fin.ext ?_)
    match a with
    | ⟨0, _⟩ => show win1_4.index t (0 : Fin 2) * 1 + 1 * (0 : Fin 1).val = 0; rw [(hrow t).2.2.2.1.1]; rfl
    | ⟨1, _⟩ => show win1_4.index t (1 : Fin 2) * 133 + 1 * q.val = win1_6.index t (1 : Fin 2) * 133 + 1 * q.val; rw [(hrow t).2.2.2.1.2, e2]
  have h5 : iblk1 V c 5 t (ix2 (0 : Fin 1) q) = V c main_v48 (Layer.featRow (((cfg1.win 6).blk t).view.emb (ix2 p q))) := by
    show V c main_v48 (((cfg1.win 5).blk t).view.emb (ix2 (0 : Fin 1) q)) = _
    refine congrArg (V c main_v48) (funext fun a => Fin.ext ?_)
    match a with
    | ⟨0, _⟩ => show win1_5.index t (0 : Fin 2) * 1 + 1 * (0 : Fin 1).val = 0; rw [(hrow t).2.2.2.2.1]; rfl
    | ⟨1, _⟩ => show win1_5.index t (1 : Fin 2) * 133 + 1 * q.val = win1_6.index t (1 : Fin 2) * 133 + 1 * q.val; rw [(hrow t).2.2.2.2.2, e2]
  exact formula_congr h0 h1 h4 h5 h2 h3

/-- An index of the output array is in point `t`'s block iff each coordinate is in the block's range on its axis. -/
theorem mem_block (t : Fin cfg1.N) (i : S50000x133.Idx) :
    i ∈ ((cfg1.win 6).blk t).view.set ↔ ∀ a : Fin 2, win1_6.index t a * S5000x133.size a ≤ (i a).val ∧ (i a).val < win1_6.index t a * S5000x133.size a + S5000x133.size a := by
  show i ∈ ((View.whole main_v49).slice (win1_6.rect t)).set ↔ _
  rw [View.set_slice_whole, Rect.mem_set_unit]
  exact Iff.rfl

/-- Every entry of the output array is in some point's block: row r in the block of point r / 5000. -/
theorem covered (i : S50000x133.Idx) :
    ∃ t : Fin cfg1.N, (cfg1.win 6).flush t = true ∧ i ∈ ((cfg1.win 6).blk t).view.set := by
  have hi0 : (i 0).val < 50000 := (i 0).isLt
  have hi1 : (i 1).val < 133 := (i 1).isLt
  have hN : grid1.N = 10 := N_1
  have ht : (i 0).val / 5000 < cfg1.N := by show _ < grid1.N; rw [hN]; omega
  obtain ⟨e0, e1, e2, e3⟩ := index_maps ⟨(i 0).val / 5000, ht⟩
  refine ⟨⟨(i 0).val / 5000, ht⟩, flush1_6 _, ?_⟩
  rw [mem_block]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e3]; show (i 0).val / 5000 * 5000 ≤ (i 0).val ∧ (i 0).val < (i 0).val / 5000 * 5000 + 5000; omega
  | ⟨1, _⟩ =>
    show win1_6.index ⟨(i 0).val / 5000, ht⟩ (1 : Fin 2) * 133 ≤ (i 1).val ∧ (i 1).val < win1_6.index ⟨(i 0).val / 5000, ht⟩ (1 : Fin 2) * 133 + 133
    rw [e2]; omega

/-- After the region its output array is the normalisation of the arrays it found. -/
theorem final (c : Dev nD) : (dat1 V c).arrAt 6 cfg1.N
    = Layer.normaliseRows (V c main_v43) (V c main_v44) (V c main_v45) (V c main_v46) (V c main_v47) (V c main_v48) :=
  (dat1 V c).arrAt_eq_of_cover 6 _ (fun t _ => written V c t) covered

end Cert.KernelIdeal.Norm1

end
-- ==== Proof.Dense2.lean ====
/-
  Region 2 of the idealized kernel: the matrix product, ten row blocks at a time.

  Grid point t loads rows 5000·t … 5000·t + 4999 of the node matrix and the whole weight matrix, multiplies them into a zero
  accumulator and stores the 5000 × 133 product; the change of float format before the product is the identity on the extended
  reals. Entry (p, q) of that block is the sum over k of x(5000·t + p, k) · w(k, q): the entry of the full product at row
  5000·t + p. The ten blocks tile the 50000 rows, so after the region the output array is the product of the two arrays as the
  region found them, `Layer.dense` — whatever those arrays are: the region-entry contents stay a parameter `V`.
-/
import proofs.«153986_j13073880449158_2_alg».proof.Proof.Gen.KernelIdeal.Frame
import proofs.«153986_j13073880449158_2_alg».proof.Proof.Layer
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.ValueIdx
open Idealize.ShloMosaic.Pipeline (Dat)
open Cert

/-! ## The product of one block with the weights, at an entry -/

/-- The left operand's index at output entry `i` and contraction index `q`: row `i 0` … -/
theorem lhs_row (i : S5000x133.Idx) (q : dot_S5000x133_S133x133_S5000x133_1_0_0_1_n_n.contr.Idx) :
    (dot_S5000x133_S133x133_S5000x133_1_0_0_1_n_n.lhsIdx i q 0).val = (i 0).val := by
  unfold DotDims.lhsIdx
  rw [dif_neg (show ¬(0 : Fin S5000x133.rank) ∈ dot_S5000x133_S133x133_S5000x133_1_0_0_1_n_n.lhsBatch by decide), dif_pos (show (0 : Fin S5000x133.rank) ∈ dot_S5000x133_S133x133_S5000x133_1_0_0_1_n_n.lhsNonContracting by decide)]
  rfl
/-- … column the contraction index. -/
theorem lhs_col (i : S5000x133.Idx) (q : dot_S5000x133_S133x133_S5000x133_1_0_0_1_n_n.contr.Idx) :
    (dot_S5000x133_S133x133_S5000x133_1_0_0_1_n_n.lhsIdx i q 1).val = (q ⟨0, by decide⟩).val :=
  dot_S5000x133_S133x133_S5000x133_1_0_0_1_n_n.lhsIdx_val_of_single rfl i q
/-- The right operand's: row the contraction index … -/
theorem rhs_row (i : S5000x133.Idx) (q : dot_S5000x133_S133x133_S5000x133_1_0_0_1_n_n.contr.Idx) :
    (dot_S5000x133_S133x133_S5000x133_1_0_0_1_n_n.rhsIdx i q 0).val = (q ⟨0, by decide⟩).val :=
  dot_S5000x133_S133x133_S5000x133_1_0_0_1_n_n.rhsIdx_val_of_single rfl i q
/-- … column `i 1`. -/
theorem rhs_col (i : S5000x133.Idx) (q : dot_S5000x133_S133x133_S5000x133_1_0_0_1_n_n.contr.Idx) :
    (dot_S5000x133_S133x133_S5000x133_1_0_0_1_n_n.rhsIdx i q 1).val = (i 1).val := by
  unfold DotDims.rhsIdx
  rw [dif_neg (show ¬(1 : Fin S133x133.rank) ∈ dot_S5000x133_S133x133_S5000x133_1_0_0_1_n_n.rhsBatch by decide), dif_pos (show (1 : Fin S133x133.rank) ∈ dot_S5000x133_S133x133_S5000x133_1_0_0_1_n_n.rhsNonContracting by decide)]
  rfl

/-- The body's stored value at entry (p, q) of the block: the sum over k of the block's (p, k) times the weights' (k, q). The
    zero accumulator adds nothing, and the narrowing of both operands' format is the identity here. -/
theorem product_block (xb : Vec Ideal S5000x133 .f32) (w : Vec Ideal S133x133 .f32) (p : Fin 5000) (q : Fin 133) :
    k2_pay1 (F := Ideal) xb w (ix2 p q) = ∑ k : Fin 133, xb (ix2 p k) * w (ix2 k q) := by
  unfold k2_pay1
  simp only [shapeCast_self]
  show FloatOps.matmul (F := Ideal) dot_S5000x133_S133x133_S5000x133_1_0_0_1_n_n none (truncf (F := Ideal) .bf16 xb bitsLt_bf16_f32) (truncf (F := Ideal) .bf16 w bitsLt_bf16_f32) (constant (F := Ideal) S5000x133 .f32 0x00000000#32) (ix2 p q) = _
  rw [Ideal.matmul_constant_zero_apply, ← Equiv.sum_comp (ValueIdx.contrEquiv1 dot_S5000x133_S133x133_S5000x133_1_0_0_1_n_n 133 rfl rfl).symm]
  refine Finset.sum_congr rfl fun k _ => ?_
  have hk := ValueIdx.contrEquiv1_symm_val dot_S5000x133_S133x133_S5000x133_1_0_0_1_n_n 133 rfl rfl k
  have el : dot_S5000x133_S133x133_S5000x133_1_0_0_1_n_n.lhsIdx (ix2 p q) ((ValueIdx.contrEquiv1 dot_S5000x133_S133x133_S5000x133_1_0_0_1_n_n 133 rfl rfl).symm k) = ix2 p k := funext fun a => Fin.ext (by
    match a with
    | ⟨0, _⟩ => exact lhs_row _ _
    | ⟨1, _⟩ => exact (lhs_col _ _).trans hk)
  have er : dot_S5000x133_S133x133_S5000x133_1_0_0_1_n_n.rhsIdx (ix2 p q) ((ValueIdx.contrEquiv1 dot_S5000x133_S133x133_S5000x133_1_0_0_1_n_n 133 rfl rfl).symm k) = ix2 k q := funext fun a => Fin.ext (by
    match a with
    | ⟨0, _⟩ => exact (rhs_row _ _).trans hk
    | ⟨1, _⟩ => exact rhs_col _ _)
  rw [el, er]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten grid points: the node matrix's block and the output's block are block `t` of the
    rows, at column block 0; the weight matrix is one block. -/
theorem index_maps : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- What point `t` writes back is block `t` of the product of the arrays the region finds. -/
theorem written (c : Dev nD) (t : Fin cfg2.N) :
    (dat2 V c).flushed 2 t = ((cfg2.win 2).blk t).view.read (Elt Ideal) (Layer.dense (V c main_v49) (V c main_arg5)) := by
  show (cfg2.win 2).cut (grid2.coords t) ((dat2 V c).after 2 t) = _
  rw [after2_2]
  unfold out2_2
  rw [View.canon_unit_zero origin]
  simp only [View.ld_unit_zero (S := S5000x133) origin, View.ld_unit_zero (S := S133x133) origin]
  obtain ⟨e0, e1, e2, e3, e4, e5⟩ := index_maps t
  funext j
  obtain ⟨p, q, rfl⟩ : ∃ (p : Fin 5000) (q : Fin 133), j = ix2 p q := ⟨j 0, j 1, eq_ix2 j⟩
  show k2_pay1 (iblk2 V c 0 t) (iblk2 V c 1 t) (ix2 p q)
    = Layer.dense (V c main_v49) (V c main_arg5) (((cfg2.win 2).blk t).view.emb (ix2 p q))
  refine (product_block (iblk2 V c 0 t) (iblk2 V c 1 t) p q).trans ?_
  refine Finset.sum_congr rfl fun k _ => ?_
  have hx : iblk2 V c 0 t (ix2 p k) = V c main_v49 (Layer.inRow (((cfg2.win 2).blk t).view.emb (ix2 p q)) k) := by
    show V c main_v49 (((cfg2.win 0).blk t).view.emb (ix2 p k)) = _
    refine congrArg (V c main_v49) (funext fun a => Fin.ext ?_)
    match a with
    | ⟨0, _⟩ => show win2_0.index t (0 : Fin 2) * 5000 + 1 * p.val = win2_2.index t (0 : Fin 2) * 5000 + 1 * p.val; rw [e0]
    | ⟨1, _⟩ => show win2_0.index t (1 : Fin 2) * 133 + 1 * k.val = k.val; rw [e1]; omega
  have hw : iblk2 V c 1 t (ix2 k q) = V c main_arg5 (Layer.inCol (((cfg2.win 2).blk t).view.emb (ix2 p q)) k) := by
    show V c main_arg5 (((cfg2.win 1).blk t).view.emb (ix2 k q)) = _
    refine congrArg (V c main_arg5) (funext fun a => Fin.ext ?_)
    match a with
    | ⟨0, _⟩ => show win2_1.index t (0 : Fin 2) * 133 + 1 * k.val = k.val; rw [e2]; omega
    | ⟨1, _⟩ => show win2_1.index t (1 : Fin 2) * 133 + 1 * q.val = win2_2.index t (1 : Fin 2) * 133 + 1 * q.val; rw [e3, e4]
  rw [hx, hw]

/-- An index of the output array is in point `t`'s block iff each coordinate is in the block's range on its axis. -/
theorem mem_block (t : Fin cfg2.N) (i : S50000x133.Idx) :
    i ∈ ((cfg2.win 2).blk t).view.set ↔ ∀ a : Fin 2, win2_2.index t a * S5000x133.size a ≤ (i a).val ∧ (i a).val < win2_2.index t a * S5000x133.size a + S5000x133.size a := by
  show i ∈ ((View.whole main_v50).slice (win2_2.rect t)).set ↔ _
  rw [View.set_slice_whole, Rect.mem_set_unit]
  exact Iff.rfl

/-- Every entry of the output array is in some point's block: row r in the block of point r / 5000. -/
theorem covered (i : S50000x133.Idx) :
    ∃ t : Fin cfg2.N, (cfg2.win 2).flush t = true ∧ i ∈ ((cfg2.win 2).blk t).view.set := by
  have hi0 : (i 0).val < 50000 := (i 0).isLt
  have hi1 : (i 1).val < 133 := (i 1).isLt
  have hN : grid2.N = 10 := N_2
  have ht : (i 0).val / 5000 < cfg2.N := by show _ < grid2.N; rw [hN]; omega
  obtain ⟨e0, e1, e2, e3, e4, e5⟩ := index_maps ⟨(i 0).val / 5000, ht⟩
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win2_2.index ⟨(i 0).val / 5000, ht⟩ (1 : Fin 2) * 133 ≤ (i 1).val ∧ (i 1).val < win2_2.index ⟨(i 0).val / 5000, ht⟩ (1 : Fin 2) * 133 + 133
    rw [e4]; omega

/-- After the region its output array is the product of the node matrix and the weight matrix it found. -/
theorem final (c : Dev nD) : (dat2 V c).arrAt 2 cfg2.N = Layer.dense (V c main_v49) (V c main_arg5) :=
  (dat2 V c).arrAt_eq_of_cover 2 _ (fun t _ => written V c t) covered

end Cert.KernelIdeal.Dense2

end
-- ==== Proof.Norm3.lean ====
/-
  Region 3 of the idealized kernel: bias, rectifier and normalisation, ten row blocks at a time.

  Grid point t loads rows 5000·t … 5000·t + 4999 of the aggregated node matrix and the layer's five feature vectors, each laid
  out as one row, and stores ((max (h + b) 0 − μ) · rsqrt (v + ε)) · g + β, every feature vector read at the entry's column.
  Every operation is entry by entry, so entry (p, q) of block t is that formula at row 5000·t + p of the array; the ten blocks
  tile the 50000 rows, and after the region the output array is `Layer.normaliseRows` of the arrays the region found, which
  stay a parameter `V`.
-/
import proofs.«153986_j13073880449158_2_alg».proof.Proof.Gen.KernelIdeal.Frame
import proofs.«153986_j13073880449158_2_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Norm3

open Cert.KernelIdeal Cert.KernelIdeal.Gen Idealize.ShloMosaic Idealize.ShloMosaic.TcCoe Idealize.SL.Sem
open Idealize.ShloMosaic.ValueIdx
open Idealize.ShloMosaic.Pipeline (Dat)
open Cert

/-! ## The body's stored value at an entry -/

/-- Entry (p, q) of the block the body stores: the formula at the block's (p, q) and each row vector's (0, q). The casts of
    a vector to its own shape are the identity, and a row broadcast down the block reads the row at the entry's column. -/
theorem normalise_block (h : Vec Ideal S5000x133 .f32) (b rv rm g beta : Vec Ideal S1x133 .f32) (p : Fin 5000) (q : Fin 133) :
    k3_pay1 (F := Ideal) h b rv rm g beta (ix2 p q)
      = (max (h (ix2 p q) + b (ix2 (0 : Fin 1) q)) (Ideal.ofBits .f32 0x00000000#32) - rm (ix2 (0 : Fin 1) q))
          * Ideal.rsqrt (rv (ix2 (0 : Fin 1) q) + Ideal.ofBits .f32 0x3727C5AC#32) * g (ix2 (0 : Fin 1) q) + beta (ix2 (0 : Fin 1) q) := by
  unfold k3_pay1
  simp only [shapeCast_self]
  show (max (h (ix2 p q) + broadcastTo S5000x133 b broadcasts_S1x133_S5000x133 (ix2 p q)) (Ideal.ofBits .f32 0x00000000#32)
          - broadcastTo S5000x133 rm broadcasts_S1x133_S5000x133 (ix2 p q))
        * broadcastTo S5000x133 (rsqrt (addf rv (broadcast S1x133 (Scalar.ofBits (F := Ideal) .f32 0x3727C5AC#32)))) broadcasts_S1x133_S5000x133 (ix2 p q)
        * broadcastTo S5000x133 g broadcasts_S1x133_S5000x133 (ix2 p q)
        + broadcastTo S5000x133 beta broadcasts_S1x133_S5000x133 (ix2 p q) = _
  rw [broadcastTo_1b_ab_apply, broadcastTo_1b_ab_apply, broadcastTo_1b_ab_apply, broadcastTo_1b_ab_apply, broadcastTo_1b_ab_apply]
  rfl

/-- The formula depends on its six entries only. -/
theorem formula_congr {a a' b b' μ μ' v v' g g' s s' : EReal} (ha : a = a') (hb : b = b') (hμ : μ = μ') (hv : v = v')
    (hg : g = g') (hs : s = s') :
    (max (a + b) (Ideal.ofBits .f32 0x00000000#32) - μ) * Ideal.rsqrt (v + Ideal.ofBits .f32 0x3727C5AC#32) * g + s
      = (max (a' + b') (Ideal.ofBits .f32 0x00000000#32) - μ') * Ideal.rsqrt (v' + Ideal.ofBits .f32 0x3727C5AC#32) * g' + s' := by
  subst ha hb hμ hv hg hs; rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the ten grid points: the node matrix's block and the output's block are block `t` of the
    rows, at column block 0. -/
theorem index_maps : ∀ t : Fin cfg3.N,
    win3_0.index t (0 : Fin 2) = win3_6.index t (0 : Fin 2) ∧ win3_0.index t (1 : Fin 2) = 0
    ∧ win3_6.index t (1 : Fin 2) = 0 ∧ win3_6.index t (0 : Fin 2) = t.val :=
  (by decide +kernel : ∀ t : Fin grid3.N, _)
/-- Each of the five row vectors is one block. -/
theorem hrow : ∀ t : Fin cfg3.N,
    (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0) :=
  (by decide +kernel : ∀ t : Fin grid3.N, _)

set_option maxHeartbeats 1000000 in
/-- What point `t` writes back is block `t` of the normalisation of the arrays the region finds. -/
theorem written (c : Dev nD) (t : Fin cfg3.N) :
    (dat3 V c).flushed 6 t = ((cfg3.win 6).blk t).view.read (Elt Ideal)
      (Layer.normaliseRows (V c main_v63) (V c main_v64) (V c main_v65) (V c main_v66) (V c main_v67) (V c main_v68)) := by
  show (cfg3.win 6).cut (grid3.coords t) ((dat3 V c).after 6 t) = _
  rw [after3_6]
  unfold out3_6
  rw [View.canon_unit_zero origin]
  simp only [View.ld_unit_zero (S := S5000x133) origin, View.ld_unit_zero (S := S1x133) origin]
  obtain ⟨e0, e1, e2, e3⟩ := index_maps t
  funext j
  obtain ⟨p, q, rfl⟩ : ∃ (p : Fin 5000) (q : Fin 133), j = ix2 p q := ⟨j 0, j 1, eq_ix2 j⟩
  show k3_pay1 (iblk3 V c 0 t) (iblk3 V c 1 t) (iblk3 V c 5 t) (iblk3 V c 4 t) (iblk3 V c 2 t) (iblk3 V c 3 t) (ix2 p q)
    = Layer.normaliseRows (V c main_v63) (V c main_v64) (V c main_v65) (V c main_v66) (V c main_v67) (V c main_v68) (((cfg3.win 6).blk t).view.emb (ix2 p q))
  refine (normalise_block (iblk3 V c 0 t) (iblk3 V c 1 t) (iblk3 V c 5 t) (iblk3 V c 4 t) (iblk3 V c 2 t) (iblk3 V c 3 t) p q).trans ?_
  have h0 : iblk3 V c 0 t (ix2 p q) = V c main_v63 (((cfg3.win 6).blk t).view.emb (ix2 p q)) := by
    show V c main_v63 (((cfg3.win 0).blk t).view.emb (ix2 p q)) = _
    refine congrArg (V c main_v63) (funext fun a => Fin.ext ?_)
    match a with
    | ⟨0, _⟩ => show win3_0.index t (0 : Fin 2) * 5000 + 1 * p.val = win3_6.index t (0 : Fin 2) * 5000 + 1 * p.val; rw [e0]
    | ⟨1, _⟩ => show win3_0.index t (1 : Fin 2) * 133 + 1 * q.val = win3_6.index t (1 : Fin 2) * 133 + 1 * q.val; rw [e1, e2]
  have h1 : iblk3 V c 1 t (ix2 (0 : Fin 1) q) = V c main_v64 (Layer.featRow (((cfg3.win 6).blk t).view.emb (ix2 p q))) := by
    show V c main_v64 (((cfg3.win 1).blk t).view.emb (ix2 (0 : Fin 1) q)) = _
    refine congrArg (V c main_v64) (funext fun a => Fin.ext ?_)
    match a with
    | ⟨0, _⟩ => show win3_1.index t (0 : Fin 2) * 1 + 1 * (0 : Fin 1).val = 0; rw [(hrow t).1.1]; rfl
    | ⟨1, _⟩ => show win3_1.index t (1 : Fin 2) * 133 + 1 * q.val = win3_6.index t (1 : Fin 2) * 133 + 1 * q.val; rw [(hrow t).1.2, e2]
  have h2 : iblk3 V c 2 t (ix2 (0 : Fin 1) q) = V c main_v65 (Layer.featRow (((cfg3.win 6).blk t).view.emb (ix2 p q))) := by
    show V c main_v65 (((cfg3.win 2).blk t).view.emb (ix2 (0 : Fin 1) q)) = _
    refine congrArg (V c main_v65) (funext fun a => Fin.ext ?_)
    match a with
    | ⟨0, _⟩ => show win3_2.index t (0 : Fin 2) * 1 + 1 * (0 : Fin 1).val = 0; rw [(hrow t).2.1.1]; rfl
    | ⟨1, _⟩ => show win3_2.index t (1 : Fin 2) * 133 + 1 * q.val = win3_6.index t (1 : Fin 2) * 133 + 1 * q.val; rw [(hrow t).2.1.2, e2]
  have h3 : iblk3 V c 3 t (ix2 (0 : Fin 1) q) = V c main_v66 (Layer.featRow (((cfg3.win 6).blk t).view.emb (ix2 p q))) := by
    show V c main_v66 (((cfg3.win 3).blk t).view.emb (ix2 (0 : Fin 1) q)) = _
    refine congrArg (V c main_v66) (funext fun a => Fin.ext ?_)
    match a with
    | ⟨0, _⟩ => show win3_3.index t (0 : Fin 2) * 1 + 1 * (0 : Fin 1).val = 0; rw [(hrow t).2.2.1.1]; rfl
    | ⟨1, _⟩ => show win3_3.index t (1 : Fin 2) * 133 + 1 * q.val = win3_6.index t (1 : Fin 2) * 133 + 1 * q.val; rw [(hrow t).2.2.1.2, e2]
  have h4 : iblk3 V c 4 t (ix2 (0 : Fin 1) q) = V c main_v67 (Layer.featRow (((cfg3.win 6).blk t).view.emb (ix2 p q))) := by
    show V c main_v67 (((cfg3.win 4).blk t).view.emb (ix2 (0 : Fin 1) q)) = _
    refine congrArg (V c main_v67) (funext fun a => Fin.ext ?_)
    match a with
    | ⟨0, _⟩ => show win3_4.index t (0 : Fin 2) * 1 + 1 * (0 : Fin 1).val = 0; rw [(hrow t).2.2.2.1.1]; rfl
    | ⟨1, _⟩ => show win3_4.index t (1 : Fin 2) * 133 + 1 * q.val = win3_6.index t (1 : Fin 2) * 133 + 1 * q.val; rw [(hrow t).2.2.2.1.2, e2]
  have h5 : iblk3 V c 5 t (ix2 (0 : Fin 1) q) = V c main_v68 (Layer.featRow (((cfg3.win 6).blk t).view.emb (ix2 p q))) := by
    show V c main_v68 (((cfg3.win 5).blk t).view.emb (ix2 (0 : Fin 1) q)) = _
    refine congrArg (V c main_v68) (funext fun a => Fin.ext ?_)
    match a with
    | ⟨0, _⟩ => show win3_5.index t (0 : Fin 2) * 1 + 1 * (0 : Fin 1).val = 0; rw [(hrow t).2.2.2.2.1]; rfl
    | ⟨1, _⟩ => show win3_5.index t (1 : Fin 2) * 133 + 1 * q.val = win3_6.index t (1 : Fin 2) * 133 + 1 * q.val; rw [(hrow t).2.2.2.2.2, e2]
  exact formula_congr h0 h1 h4 h5 h2 h3

/-- An index of the output array is in point `t`'s block iff each coordinate is in the block's range on its axis. -/
theorem mem_block (t : Fin cfg3.N) (i : S50000x133.Idx) :
    i ∈ ((cfg3.win 6).blk t).view.set ↔ ∀ a : Fin 2, win3_6.index t a * S5000x133.size a ≤ (i a).val ∧ (i a).val < win3_6.index t a * S5000x133.size a + S5000x133.size a := by
  show i ∈ ((View.whole main_v69).slice (win3_6.rect t)).set ↔ _
  rw [View.set_slice_whole, Rect.mem_set_unit]
  exact Iff.rfl

/-- Every entry of the output array is in some point's block: row r in the block of point r / 5000. -/
theorem covered (i : S50000x133.Idx) :
    ∃ t : Fin cfg3.N, (cfg3.win 6).flush t = true ∧ i ∈ ((cfg3.win 6).blk t).view.set := by
  have hi0 : (i 0).val < 50000 := (i 0).isLt
  have hi1 : (i 1).val < 133 := (i 1).isLt
  have hN : grid3.N = 10 := N_3
  have ht : (i 0).val / 5000 < cfg3.N := by show _ < grid3.N; rw [hN]; omega
  obtain ⟨e0, e1, e2, e3⟩ := index_maps ⟨(i 0).val / 5000, ht⟩
  refine ⟨⟨(i 0).val / 5000, ht⟩, flush3_6 _, ?_⟩
  rw [mem_block]
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    rw [e3]; show (i 0).val / 5000 * 5000 ≤ (i 0).val ∧ (i 0).val < (i 0).val / 5000 * 5000 + 5000; omega
  | ⟨1, _⟩ =>
    show win3_6.index ⟨(i 0).val / 5000, ht⟩ (1 : Fin 2) * 133 ≤ (i 1).val ∧ (i 1).val < win3_6.index ⟨(i 0).val / 5000, ht⟩ (1 : Fin 2) * 133 + 133
    rw [e2]; omega

/-- After the region its output array is the normalisation of the arrays it found. -/
theorem final (c : Dev nD) : (dat3 V c).arrAt 6 cfg3.N
    = Layer.normaliseRows (V c main_v63) (V c main_v64) (V c main_v65) (V c main_v66) (V c main_v67) (V c main_v68) :=
  (dat3 V c).arrAt_eq_of_cover 6 _ (fun t _ => written V c t) covered

end Cert.KernelIdeal.Norm3

end
-- ==== Proof.Graph.lean ====
/-
  The host operations the two programs share, each stretch named as one function on the extended reals. Neither program's
  proof ever opens them: both apply the same functions to values that are shown equal.

  The graph has 1600000 edges, given as a 2 × 1600000 table of node numbers, and 50000 nodes. `sources` and `targets` are the
  two rows of the table with one loop per node appended (1650000 entries). A node's degree counts the entries of `targets` that
  name it; `edgeNorm` is, per entry, the product of the inverse square roots of the degrees of its source and of its target
  (zero where a degree is not positive). `aggregate` gathers a node matrix's rows by source, scales each by the entry's norm and
  sums them into the rows named by target. `pool` sums a node matrix's rows into 2048 groups by a table of group numbers and
  divides each group's sum by the group's size, or by one if the group is empty. A node number below zero is read from the end,
  as the host's indexing does.
-/
import proofs.«153986_j13073880449158_2_alg».proof.Proof.Gen.KernelIdeal
import Idealize.ShloMosaic.PureOps.Ideal

noncomputable section

namespace Cert.Graph

open Cert.KernelIdeal Cert.KernelIdeal.Facts₀ Cert.KernelIdeal.Facts Idealize.ShloMosaic

/-- An array of the given shape and element type at the ideal values. -/
abbrev Arr (S : Shape) (e : EltTy) : Type := (⟨S, e⟩ : BufTy).Contents (Elt Ideal)

/-- A list of node numbers with one loop per node appended. -/
def withLoops (row : Arr S1x1600000 .i32) : Arr S1650000 .i32 :=
  concatenate S1650000 0 [⟨S1600000, shapeCast S1600000 row shapeCasts_S1x1600000_S1600000⟩, ⟨S50000, iotaInDim S50000 32 0⟩]
    concatenates_S1600000_S50000_S1650000_d0

/-- The edges' sources, loops appended. -/
def sources (e : Arr S2x1600000 .i32) : Arr S1650000 .i32 :=
  withLoops (extractStridedSlice S1x1600000 ![0, 0] e slices_S2x1600000_S1x1600000_0_0)
/-- The edges' targets, loops appended. -/
def targets (e : Arr S2x1600000 .i32) : Arr S1650000 .i32 :=
  withLoops (extractStridedSlice S1x1600000 ![1, 0] e slices_S2x1600000_S1x1600000_1_0)

/-- Node numbers as the host's indexing reads them: a number below zero counts from the end. -/
def fromEnd (r : Arr S1650000 .i32) : Arr S1650000 .i32 :=
  select (cmpi .slt r (broadcastInDim S1650000 ![] bcast_S_S1650000 (constantI S_ 32 0#32)))
    (addi r (broadcastInDim S1650000 ![] bcast_S_S1650000 (constantI S_ 32 50000#32))) r

/-- How many entries of `targets` name each node. -/
def degree (e : Arr S2x1600000 .i32) : Arr S50000 .f32 :=
  Host.scatterAdd (F := Ideal) scatter_S50000_S1650000x1_S1650000_n_0_0_1
    (broadcastInDim S50000 ![] bcast_S_S50000 (constant (F := Ideal) S_ .f32 0x00000000#32))
    (broadcastInDim S1650000x1 ![0] bcast_S1650000_S1650000x1_0 (targets e))
    (broadcastInDim S1650000 ![] bcast_S_S1650000 (constant (F := Ideal) S_ .f32 0x3F800000#32))

/-- The inverse square root of each node's degree, zero where the degree is not positive. -/
def invSqrtDegree (e : Arr S2x1600000 .i32) : Arr S50000 .f32 :=
  select (cmpf (F := Ideal) .ogt (degree e) (broadcastInDim S50000 ![] bcast_S_S50000 (constant (F := Ideal) S_ .f32 0x00000000#32)))
    (Host.rsqrt (F := Ideal) (φ := .f32) (degree e))
    (broadcastInDim S50000 ![] bcast_S_S50000 (id (constant (F := Ideal) S_ .f32 0x00000000#32)))

/-- Per entry of the edge list: the product of the two ends' inverse square root degrees. -/
def edgeNorm (e : Arr S2x1600000 .i32) : Arr S1650000 .f32 :=
  mulf (F := Ideal) (φ := .f32)
    (Host.gather gather_S50000_S1650000x1_S1650000_n_0_n_n_0_1_1 (invSqrtDegree e)
      (broadcastInDim S1650000x1 ![0] bcast_S1650000_S1650000x1_0 (fromEnd (sources e))))
    (Host.gather gather_S50000_S1650000x1_S1650000_n_0_n_n_0_1_1 (invSqrtDegree e)
      (broadcastInDim S1650000x1 ![0] bcast_S1650000_S1650000x1_0 (fromEnd (targets e))))

/-- Rows gathered by source, scaled by the entry's norm, summed into the rows named by target. -/
def aggregate (h : Arr S50000x133 .f32) (r c : Arr S1650000 .i32) (n : Arr S1650000 .f32) : Arr S50000x133 .f32 :=
  Host.scatterAdd (F := Ideal) scatter_S50000x133_S1650000x1_S1650000x133_1_0_0_1
    (broadcastInDim S50000x133 ![] bcast_S_S50000x133 (constant (F := Ideal) S_ .f32 0x00000000#32))
    (broadcastInDim S1650000x1 ![0] bcast_S1650000_S1650000x1_0 c)
    (mulf (F := Ideal) (φ := .f32)
      (Host.gather gather_S50000x133_S1650000x1_S1650000x133_1_0_n_n_0_1_1133 h
        (broadcastInDim S1650000x1 ![0] bcast_S1650000_S1650000x1_0 (fromEnd r)))
      (broadcastInDim S1650000x133 ![0, 1] bcast_S1650000x1_S1650000x133_0_1
        (broadcastInDim S1650000x1 ![0] bcast_S1650000_S1650000x1_0 n)))

/-- Rows summed by group, each group's sum divided by the group's size (by one for an empty group). -/
def pool (h : Arr S50000x133 .f32) (group : Arr S50000 .i32) : Arr S2048x133 .f32 :=
  Host.divf (F := Ideal) (φ := .f32)
    (Host.scatterAdd (F := Ideal) scatter_S2048x133_S50000x1_S50000x133_1_0_0_1
      (broadcastInDim S2048x133 ![] bcast_S_S2048x133 (constant (F := Ideal) S_ .f32 0x00000000#32))
      (broadcastInDim S50000x1 ![0] bcast_S50000_S50000x1_0 group) h)
    (broadcastInDim S2048x133 ![0, 1] bcast_S2048x1_S2048x133_0_1
      (broadcastInDim S2048x1 ![0] bcast_S2048_S2048x1_0
        (maximumf (F := Ideal) (φ := .f32)
          (Host.scatterAdd (F := Ideal) scatter_S2048_S50000x1_S50000_n_0_0_1
            (broadcastInDim S2048 ![] bcast_S_S2048 (constant (F := Ideal) S_ .f32 0x00000000#32))
            (broadcastInDim S50000x1 ![0] bcast_S50000_S50000x1_0 group)
            (broadcastInDim S50000 ![] bcast_S_S50000 (constant (F := Ideal) S_ .f32 0x3F800000#32)))
          (broadcastInDim S2048 ![] bcast_S_S2048 (constant (F := Ideal) S_ .f32 0x3F800000#32)))))

end Cert.Graph

end
-- ==== Proof.Stretches.lean ====
/-
  Each stretch of host operations of the idealized kernel's @main, read as one function of the buffers it starts from.

  A stretch is a list of operations, each writing one buffer from a few others; what a buffer holds after the stretch is the
  composition of the operations that lead to it, applied to what the stretch's inputs held before. The starting contents stay a
  variable `X`, so that the same lemma serves wherever the stretch stands in the program. The first three stretches compute the
  edge lists and the edge norm from the edge table; the stretch after each matrix product aggregates it along the edges and lays
  the layer's five feature vectors out as rows; the last stretch pools the nodes by group. The compositions are the functions of
  `Cert.Graph`.
-/
import proofs.«153986_j13073880449158_2_alg».proof.Proof.Gen.KernelIdeal.Launch
import proofs.«153986_j13073880449158_2_alg».proof.Proof.Graph
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.ShloMosaic.StableHlo Idealize.SL.Sem
open Cert

/-- No operation of the stretch writes the buffer. -/
abbrev Untouched (ops : List (HloOp τ sig (Elt Ideal))) (b : Ref sig .tc) : Prop :=
  ops.Forall fun op => Proc.devRef (τ := τ) .tc b ∉ op.writes

/-- Closes "no operation of this stretch writes that buffer": each operation writes its one result buffer, and the buffer in
    question is another. -/
macro "unwritten" : tactic => `(tactic| (
  try dsimp only [Untouched]
  simp only [hostOps0, hostOps0_1, hostOps0_2, hostOps1, hostOps3, hostOps4, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

variable (X : Valuation τ sig (Elt Ideal))

/-! ## Before the first region: the edge lists and the edge norm, from the edge table

The three stretches are read one at a time — the edge lists, the degrees' sign and inverse square root; the choice between the
inverse square root and zero; the product of the two ends' values — and then composed: a later stretch leaves an earlier one's
buffers alone. -/

/-- The first stretch: the sources, loops appended … -/
theorem sources0 : after (hostOps0 (F := Ideal)) X (Proc.devRef .tc main_v5) = Graph.sources (X (Proc.devRef .tc main_arg1)) := by
  after_results_simp <;> rfl
/-- … the targets … -/
theorem targets0 : after (hostOps0 (F := Ideal)) X (Proc.devRef .tc main_v6) = Graph.targets (X (Proc.devRef .tc main_arg1)) := by
  after_results_simp <;> rfl
/-- … where the degree is positive … -/
theorem positive0 : after (hostOps0 (F := Ideal)) X (Proc.devRef .tc main_v12)
    = cmpf (F := Ideal) .ogt (Graph.degree (X (Proc.devRef .tc main_arg1))) (broadcastInDim S50000 ![] bcast_S_S50000 (constant (F := Ideal) S_ .f32 0x00000000#32)) := by
  after_results_simp <;> rfl
/-- … and the degree's inverse square root. -/
theorem rsqrt0 : after (hostOps0 (F := Ideal)) X (Proc.devRef .tc main_v13)
    = Host.rsqrt (F := Ideal) (φ := .f32) (Graph.degree (X (Proc.devRef .tc main_arg1))) := by
  after_results_simp <;> rfl

/-- It also leaves the zero the choice falls back on. -/
theorem zero0 : after (hostOps0 (F := Ideal)) X (Proc.devRef .tc main_cst_2) = constant (F := Ideal) S_ .f32 0x00000000#32 := by
  after_results_simp <;> rfl

/-- The second stretch: the inverse square root where the degree is positive, the fallback elsewhere. -/
theorem chosen1 : after (hostOps0_1 (F := Ideal)) X (Proc.devRef .tc main_v14)
    = select (X (Proc.devRef .tc main_v12)) (X (Proc.devRef .tc main_v13))
        (broadcastInDim S50000 ![] bcast_S_S50000 (id (X (Proc.devRef .tc main_cst_2)))) := by
  after_results_simp <;> rfl

/-- The third stretch: per entry of the edge list, the product of its two ends' values. -/
theorem product2 : after (hostOps0_2 (F := Ideal)) X (Proc.devRef .tc main_v29)
    = mulf (F := Ideal) (φ := .f32)
        (Host.gather gather_S50000_S1650000x1_S1650000_n_0_n_n_0_1_1 (X (Proc.devRef .tc main_v14)) (broadcastInDim S1650000x1 ![0] bcast_S1650000_S1650000x1_0 (Graph.fromEnd (X (Proc.devRef .tc main_v5)))))
        (Host.gather gather_S50000_S1650000x1_S1650000_n_0_n_n_0_1_1 (X (Proc.devRef .tc main_v14)) (broadcastInDim S1650000x1 ![0] bcast_S1650000_S1650000x1_0 (Graph.fromEnd (X (Proc.devRef .tc main_v6))))) := by
  after_results_simp <;> rfl

/-- After the first two stretches the sources' buffer still holds the sources … -/
theorem sources01 : (after hostOps0_1 (after hostOps0 X)) (Proc.devRef .tc main_v5) = Graph.sources (X (Proc.devRef .tc main_arg1)) :=
  (after_of_forall_not_mem (b := (Proc.devRef .tc main_v5)) (hostOps0_1 (F := Ideal)) _
    (List.forall_iff_forall_mem.mp (by unwritten))).trans (sources0 X)
/-- … the targets' the targets … -/
theorem targets01 : (after hostOps0_1 (after hostOps0 X)) (Proc.devRef .tc main_v6) = Graph.targets (X (Proc.devRef .tc main_arg1)) :=
  (after_of_forall_not_mem (b := (Proc.devRef .tc main_v6)) (hostOps0_1 (F := Ideal)) _
    (List.forall_iff_forall_mem.mp (by unwritten))).trans (targets0 X)
/-- … and the choice's buffer the inverse square root degrees. -/
theorem invSqrtDegree01 : (after hostOps0_1 (after hostOps0 X)) (Proc.devRef .tc main_v14) = Graph.invSqrtDegree (X (Proc.devRef .tc main_arg1)) := by
  rw [chosen1, positive0, rsqrt0, zero0]
  rfl

/-- After the first three stretches the sources' buffer holds the sources of the edge table, loops appended. -/
theorem sources_of : after (hostOps0_2 (F := Ideal)) (after hostOps0_1 (after hostOps0 X)) (Proc.devRef .tc main_v5)
    = Graph.sources (X (Proc.devRef .tc main_arg1)) :=
  (after_of_forall_not_mem (b := (Proc.devRef .tc main_v5)) (hostOps0_2 (F := Ideal)) _
    (List.forall_iff_forall_mem.mp (by unwritten))).trans (sources01 X)
/-- … the targets' buffer the targets … -/
theorem targets_of : after (hostOps0_2 (F := Ideal)) (after hostOps0_1 (after hostOps0 X)) (Proc.devRef .tc main_v6)
    = Graph.targets (X (Proc.devRef .tc main_arg1)) :=
  (after_of_forall_not_mem (b := (Proc.devRef .tc main_v6)) (hostOps0_2 (F := Ideal)) _
    (List.forall_iff_forall_mem.mp (by unwritten))).trans (targets01 X)
/-- … and the norm's buffer the edge norm. -/
theorem edgeNorm_of : after (hostOps0_2 (F := Ideal)) (after hostOps0_1 (after hostOps0 X)) (Proc.devRef .tc main_v29)
    = Graph.edgeNorm (X (Proc.devRef .tc main_arg1)) := by
  rw [product2, invSqrtDegree01, sources01, targets01]
  rfl

/-! ## After the first matrix product -/

/-- The first layer's product aggregated along the edges. -/
theorem aggregated1 : after (hostOps1 (F := Ideal)) X (Proc.devRef .tc main_v43)
    = Graph.aggregate (X (Proc.devRef .tc main_v30)) (X (Proc.devRef .tc main_v5)) (X (Proc.devRef .tc main_v6)) (X (Proc.devRef .tc main_v29)) := by
  after_results_simp <;> rfl
/-- The first layer's bias as a row. -/
theorem bias1 : after (hostOps1 (F := Ideal)) X (Proc.devRef .tc main_v44) = shapeCast S1x133 (X (Proc.devRef .tc main_arg4)) shapeCasts_S133_S1x133 := by
  after_results_simp <;> rfl
/-- Its gain as a row. -/
theorem gain1 : after (hostOps1 (F := Ideal)) X (Proc.devRef .tc main_v45) = shapeCast S1x133 (X (Proc.devRef .tc main_arg7)) shapeCasts_S133_S1x133 := by
  after_results_simp <;> rfl
/-- Its shift as a row. -/
theorem shift1 : after (hostOps1 (F := Ideal)) X (Proc.devRef .tc main_v46) = shapeCast S1x133 (X (Proc.devRef .tc main_arg8)) shapeCasts_S133_S1x133 := by
  after_results_simp <;> rfl
/-- Its running mean as a row. -/
theorem mean1 : after (hostOps1 (F := Ideal)) X (Proc.devRef .tc main_v47) = shapeCast S1x133 (X (Proc.devRef .tc main_arg9)) shapeCasts_S133_S1x133 := by
  after_results_simp <;> rfl
/-- Its running variance as a row. -/
theorem var1 : after (hostOps1 (F := Ideal)) X (Proc.devRef .tc main_v48) = shapeCast S1x133 (X (Proc.devRef .tc main_arg10)) shapeCasts_S133_S1x133 := by
  after_results_simp <;> rfl

/-! ## After the second matrix product -/

/-- The second layer's product aggregated along the edges. -/
theorem aggregated2 : after (hostOps3 (F := Ideal)) X (Proc.devRef .tc main_v63)
    = Graph.aggregate (X (Proc.devRef .tc main_v50)) (X (Proc.devRef .tc main_v5)) (X (Proc.devRef .tc main_v6)) (X (Proc.devRef .tc main_v29)) := by
  after_results_simp <;> rfl
/-- The second layer's bias as a row. -/
theorem bias2 : after (hostOps3 (F := Ideal)) X (Proc.devRef .tc main_v64) = shapeCast S1x133 (X (Proc.devRef .tc main_arg6)) shapeCasts_S133_S1x133 := by
  after_results_simp <;> rfl
/-- Its gain as a row. -/
theorem gain2 : after (hostOps3 (F := Ideal)) X (Proc.devRef .tc main_v65) = shapeCast S1x133 (X (Proc.devRef .tc main_arg11)) shapeCasts_S133_S1x133 := by
  after_results_simp <;> rfl
/-- Its shift as a row. -/
theorem shift2 : after (hostOps3 (F := Ideal)) X (Proc.devRef .tc main_v66) = shapeCast S1x133 (X (Proc.devRef .tc main_arg12)) shapeCasts_S133_S1x133 := by
  after_results_simp <;> rfl
/-- Its running mean as a row. -/
theorem mean2 : after (hostOps3 (F := Ideal)) X (Proc.devRef .tc main_v67) = shapeCast S1x133 (X (Proc.devRef .tc main_arg13)) shapeCasts_S133_S1x133 := by
  after_results_simp <;> rfl
/-- Its running variance as a row. -/
theorem var2 : after (hostOps3 (F := Ideal)) X (Proc.devRef .tc main_v68) = shapeCast S1x133 (X (Proc.devRef .tc main_arg14)) shapeCasts_S133_S1x133 := by
  after_results_simp <;> rfl

/-! ## After the last region -/

/-- The result: the last region's output pooled by group. -/
theorem pooled : after (hostOps4 (F := Ideal)) X (Proc.devRef .tc main_v81)
    = Graph.pool (X (Proc.devRef .tc main_v69)) (X (Proc.devRef .tc main_arg2)) := by
  after_results_simp <;> rfl

end Cert.KernelIdeal.Stretch

end
-- ==== Proof.Carry.lean ====
/-
  What a buffer holds at a boundary of the idealized kernel's @main when nothing before that boundary writes it.

  The boundaries are numbered as the program's fold numbers them: 3 is the first region's entry, 4 its exit, 5 the second
  region's entry (after the stretch that aggregates the first product), 6 its exit and the third region's entry, 7 the third
  region's exit, 8 the fourth region's entry, 9 its exit. A stretch of host operations leaves a buffer alone when none of its
  operations writes it; a region leaves alone every buffer that is not one of its arrays. So an argument array still holds its
  launch contents wherever it is read, and the edge lists and the edge norm, computed before the first region, are still there
  when the second aggregation reads them.
-/
import proofs.«153986_j13073880449158_2_alg».proof.Proof.Gen.KernelIdeal.Frame
import proofs.«153986_j13073880449158_2_alg».proof.Proof.Stretches

set_option maxRecDepth 16384

noncomputable section

namespace Cert.KernelIdeal.Carry

open Cert.KernelIdeal Cert.KernelIdeal.Gen Idealize.ShloMosaic Idealize.ShloMosaic.TcCoe Idealize.ShloMosaic.StableHlo Idealize.SL.Sem
open Cert Cert.KernelIdeal.Stretch

variable (m : (ℓ : Loc nD τ sig) → Buf (Elt Ideal) ℓ) (ρ : Dev nD → PrngReg) (c : Dev nD)

/-! ## Launch contents, boundary by boundary -/

/-- At the first region's entry. -/
theorem launch_at3 {b : Ref sig .tc} (h0 : Untouched hostOps0 b) (h1 : Untouched hostOps0_1 b) (h2 : Untouched hostOps0_2 b) :
    W3 m ρ c (Proc.devRef .tc b) = m ((c : Thread nD τ).loc b) :=
  calc W3 m ρ c (Proc.devRef .tc b)
    _ = W2 m ρ c (Proc.devRef .tc b) := after_of_forall_not_mem _ _ (List.forall_iff_forall_mem.mp h2)
    _ = W1 m ρ c (Proc.devRef .tc b) := after_of_forall_not_mem _ _ (List.forall_iff_forall_mem.mp h1)
    _ = W0 m ρ c (Proc.devRef .tc b) := after_of_forall_not_mem _ _ (List.forall_iff_forall_mem.mp h0)
    _ = m ((c : Thread nD τ).loc b) := rfl

/-- At the first region's exit, for a buffer that is not one of its arrays. -/
theorem launch_at4 {b : Ref sig .tc} (n0 : ∀ w, Pipeline.arrRef spec0 w ≠ b)
    (h0 : Untouched hostOps0 b) (h1 : Untouched hostOps0_1 b) (h2 : Untouched hostOps0_2 b) :
    W4 m ρ c (Proc.devRef .tc b) = m ((c : Thread nD τ).loc b) :=
  (W4_of_ne m ρ c b n0).trans (launch_at3 m ρ c h0 h1 h2)

/-- At the second region's exit (the third region's entry). -/
theorem launch_at6 {b : Ref sig .tc} (n1 : ∀ w, Pipeline.arrRef spec1 w ≠ b) (h3 : Untouched hostOps1 b)
    (n0 : ∀ w, Pipeline.arrRef spec0 w ≠ b)
    (h0 : Untouched hostOps0 b) (h1 : Untouched hostOps0_1 b) (h2 : Untouched hostOps0_2 b) :
    W6 m ρ c (Proc.devRef .tc b) = m ((c : Thread nD τ).loc b) :=
  (W6_of_ne m ρ c b n1).trans
    ((after_of_forall_not_mem _ _ (List.forall_iff_forall_mem.mp h3)).trans (launch_at4 m ρ c n0 h0 h1 h2))

/-- At the third region's exit. -/
theorem launch_at7 {b : Ref sig .tc} (n2 : ∀ w, Pipeline.arrRef spec2 w ≠ b)
    (n1 : ∀ w, Pipeline.arrRef spec1 w ≠ b) (h3 : Untouched hostOps1 b) (n0 : ∀ w, Pipeline.arrRef spec0 w ≠ b)
    (h0 : Untouched hostOps0 b) (h1 : Untouched hostOps0_1 b) (h2 : Untouched hostOps0_2 b) :
    W7 m ρ c (Proc.devRef .tc b) = m ((c : Thread nD τ).loc b) :=
  (W7_of_ne m ρ c b n2).trans (launch_at6 m ρ c n1 h3 n0 h0 h1 h2)

/-- At the fourth region's exit. -/
theorem launch_at9 {b : Ref sig .tc} (n3 : ∀ w, Pipeline.arrRef spec3 w ≠ b) (h4 : Untouched hostOps3 b)
    (n2 : ∀ w, Pipeline.arrRef spec2 w ≠ b)
    (n1 : ∀ w, Pipeline.arrRef spec1 w ≠ b) (h3 : Untouched hostOps1 b) (n0 : ∀ w, Pipeline.arrRef spec0 w ≠ b)
    (h0 : Untouched hostOps0 b) (h1 : Untouched hostOps0_1 b) (h2 : Untouched hostOps0_2 b) :
    W9 m ρ c (Proc.devRef .tc b) = m ((c : Thread nD τ).loc b) :=
  (W9_of_ne m ρ c b n3).trans
    ((after_of_forall_not_mem _ _ (List.forall_iff_forall_mem.mp h4)).trans (launch_at7 m ρ c n2 n1 h3 n0 h0 h1 h2))

/-! ## The edge data, computed before the first region and read again after the third -/

/-- From the first region's entry to the third region's exit a buffer keeps its contents when neither of the three regions
    has it as an array and the stretch between the first two does not write it. -/
theorem carried_to7 {b : Ref sig .tc} (n2 : ∀ w, Pipeline.arrRef spec2 w ≠ b) (n1 : ∀ w, Pipeline.arrRef spec1 w ≠ b)
    (h3 : Untouched hostOps1 b) (n0 : ∀ w, Pipeline.arrRef spec0 w ≠ b) :
    W7 m ρ c (Proc.devRef .tc b) = W3 m ρ c (Proc.devRef .tc b) :=
  (W7_of_ne m ρ c b n2).trans ((W6_of_ne m ρ c b n1).trans
    ((after_of_forall_not_mem _ _ (List.forall_iff_forall_mem.mp h3)).trans (W4_of_ne m ρ c b n0)))

/-- At the first region's entry the sources' buffer holds the edge table's sources, loops appended … -/
theorem sources_at3 : W3 m ρ c (Proc.devRef .tc main_v5) = Graph.sources (m ((c : Thread nD τ).loc main_arg1)) :=
  Stretch.sources_of (W0 m ρ c)
/-- … the targets' buffer its targets … -/
theorem targets_at3 : W3 m ρ c (Proc.devRef .tc main_v6) = Graph.targets (m ((c : Thread nD τ).loc main_arg1)) :=
  Stretch.targets_of (W0 m ρ c)
/-- … and the norm's buffer the edge norm. -/
theorem edgeNorm_at3 : W3 m ρ c (Proc.devRef .tc main_v29) = Graph.edgeNorm (m ((c : Thread nD τ).loc main_arg1)) :=
  Stretch.edgeNorm_of (W0 m ρ c)

end Cert.KernelIdeal.Carry

end
-- ==== Proof.Network.lean ====
/-
  The whole network as one function of its fifteen arguments on the extended reals, and the two layouts of a layer's feature
  vectors.

  A layer is the matrix product with the layer's weights, the aggregation along the graph's edges, and the bias, rectifier and
  normalisation with the layer's five feature vectors; the network is two layers and the pooling of the nodes by group. Both
  programs compute this function: that is what the certificate proves. The kernel hands its normalising regions each feature vector
  laid out as one row; read at an entry's column the row is the vector's entry (`normaliseRows_rows`).
-/
import proofs.«153986_j13073880449158_2_alg».proof.Proof.Layer
import proofs.«153986_j13073880449158_2_alg».proof.Proof.Graph
import Idealize.ShloMosaic.Lib.ValueLayout

noncomputable section

namespace Cert.Layer

open Idealize.ShloMosaic Idealize.ShloMosaic.ValueIdx

/-- A feature vector laid out as one row, read at the row entry an entry of a node matrix belongs to, is the vector's entry for
    that feature. -/
theorem row_apply (x : Feat.Idx → EReal) (hc : Feat.ShapeCasts FeatRow) (i : Nodes.Idx) :
    shapeCast FeatRow x hc (featRow i) = x (feat i) :=
  shapeCast_a_1a_apply x hc (0 : Fin 1) (⟨(i 1).val, (i 1).isLt⟩ : Fin 133)

/-- The normalisation with the five vectors laid out as rows is the normalisation with the vectors. -/
theorem normaliseRows_rows (h : Nodes.Idx → EReal) (b g β μ v : Feat.Idx → EReal) (hc : Feat.ShapeCasts FeatRow) :
    normaliseRows h (shapeCast FeatRow b hc) (shapeCast FeatRow g hc) (shapeCast FeatRow β hc) (shapeCast FeatRow μ hc)
        (shapeCast FeatRow v hc)
      = normalise h b g β μ v := by
  funext i
  simp only [normaliseRows, normalise, row_apply]

/-- The rows' normalisation depends on its six arrays only. -/
theorem normaliseRows_congr {h h' : Nodes.Idx → EReal} {b b' g g' β β' μ μ' v v' : FeatRow.Idx → EReal}
    (hh : h = h') (hb : b = b') (hg : g = g') (hβ : β = β') (hμ : μ = μ') (hv : v = v') :
    normaliseRows h b g β μ v = normaliseRows h' b' g' β' μ' v' := by
  subst hh hb hg hβ hμ hv; rfl

end Cert.Layer

namespace Cert.Graph

open Cert.KernelIdeal

/-- The aggregation depends on its four arrays only. -/
theorem aggregate_congr {h h' : Arr S50000x133 .f32} {r r' c c' : Arr S1650000 .i32} {n n' : Arr S1650000 .f32}
    (hh : h = h') (hr : r = r') (hc : c = c') (hn : n = n') : aggregate h r c n = aggregate h' r' c' n' := by
  subst hh hr hc hn; rfl

/-- One layer: product with the weights, aggregation along the edges of the table `e`, bias, rectifier and normalisation. -/
def layer (x : Arr S50000x133 .f32) (e : Arr S2x1600000 .i32) (w : Arr S133x133 .f32) (b g β μ v : Arr S133 .f32) :
    Arr S50000x133 .f32 :=
  Layer.normalise (aggregate (Layer.dense x w) (sources e) (targets e) (edgeNorm e)) b g β μ v

/-- The network: two layers, then the nodes pooled by group. The arguments are in @main's order. -/
def network (x : Arr S50000x133 .f32) (e : Arr S2x1600000 .i32) (group : Arr S50000 .i32) (w1 : Arr S133x133 .f32)
    (b1 : Arr S133 .f32) (w2 : Arr S133x133 .f32) (b2 g1 β1 μ1 v1 g2 β2 μ2 v2 : Arr S133 .f32) : Arr S2048x133 .f32 :=
  pool (layer (layer x e w1 b1 g1 β1 μ1 v1) e w2 b2 g2 β2 μ2 v2) group

end Cert.Graph

end
-- ==== Proof.KernelValue.lean ====
/-
  What the idealized kernel's result buffer holds at the last boundary of @main's fold: the network of the launch arguments.

  Read from the launch forward. At the first region's entry the two arrays it loads are the node features and the first weights as
  launched, so its output is their product; the next stretch aggregates that product along the edges (the edge lists and the edge
  norm are the ones computed from the edge table before the first region) and lays the first layer's five feature vectors out as
  rows; the second region normalises, and its output is the first layer. The third region multiplies it by the second weights, the
  stretch after it aggregates again — the edge data are still in their buffers — and the fourth region normalises with the second
  layer's vectors: the second layer. The last stretch pools it by the group table. Every step is one boundary lemma of the fold, one
  region's whole-array value, and the fact that the function applied depends on its arguments only.
-/
import proofs.«153986_j13073880449158_2_alg».proof.Proof.Gen.KernelIdeal.Frame
import proofs.«153986_j13073880449158_2_alg».proof.Proof.Dense0
import proofs.«153986_j13073880449158_2_alg».proof.Proof.Norm1
import proofs.«153986_j13073880449158_2_alg».proof.Proof.Dense2
import proofs.«153986_j13073880449158_2_alg».proof.Proof.Norm3
import proofs.«153986_j13073880449158_2_alg».proof.Proof.Carry
import proofs.«153986_j13073880449158_2_alg».proof.Proof.Network

set_option maxRecDepth 16384

noncomputable section

namespace Cert.KernelIdeal.Read

open Cert.KernelIdeal Cert.KernelIdeal.Gen
open Idealize.ShloMosaic Idealize.ShloMosaic.TcCoe Idealize.ShloMosaic.StableHlo Idealize.SL.Sem
open Cert Cert.KernelIdeal.Stretch Cert.KernelIdeal.Carry

/-- The matrix product depends on its two arrays only. -/
theorem dense_congr {x x' : Layer.Nodes.Idx → EReal} {w w' : Layer.Weights.Idx → EReal} (hx : x = x') (hw : w = w') :
    Layer.dense x w = Layer.dense x' w' := by subst hx hw; rfl
/-- The pooling depends on its two arrays only. -/
theorem pool_congr {h h' : Graph.Arr S50000x133 .f32} {g g' : Graph.Arr S50000 .i32} (hh : h = h') (hg : g = g') :
    Graph.pool h g = Graph.pool h' g' := by subst hh hg; rfl

variable (m : (ℓ : Loc nD τ sig) → Buf (Elt Ideal) ℓ) (ρ : Dev nD → PrngReg) (c : Dev nD)

/-! ## The edge data where the two aggregations read them -/

theorem sources_at4 : W4 m ρ c (Proc.devRef .tc main_v5) = Graph.sources (m ((c : Thread nD τ).loc main_arg1)) :=
  (W4_of_ne m ρ c main_v5 (by decide)).trans (sources_at3 m ρ c)
theorem targets_at4 : W4 m ρ c (Proc.devRef .tc main_v6) = Graph.targets (m ((c : Thread nD τ).loc main_arg1)) :=
  (W4_of_ne m ρ c main_v6 (by decide)).trans (targets_at3 m ρ c)
theorem edgeNorm_at4 : W4 m ρ c (Proc.devRef .tc main_v29) = Graph.edgeNorm (m ((c : Thread nD τ).loc main_arg1)) :=
  (W4_of_ne m ρ c main_v29 (by decide)).trans (edgeNorm_at3 m ρ c)
theorem sources_at7 : W7 m ρ c (Proc.devRef .tc main_v5) = Graph.sources (m ((c : Thread nD τ).loc main_arg1)) :=
  (carried_to7 m ρ c (b := main_v5) (by decide) (by decide) (by unwritten) (by decide)).trans (sources_at3 m ρ c)
theorem targets_at7 : W7 m ρ c (Proc.devRef .tc main_v6) = Graph.targets (m ((c : Thread nD τ).loc main_arg1)) :=
  (carried_to7 m ρ c (b := main_v6) (by decide) (by decide) (by unwritten) (by decide)).trans (targets_at3 m ρ c)
theorem edgeNorm_at7 : W7 m ρ c (Proc.devRef .tc main_v29) = Graph.edgeNorm (m ((c : Thread nD τ).loc main_arg1)) :=
  (carried_to7 m ρ c (b := main_v29) (by decide) (by decide) (by unwritten) (by decide)).trans (edgeNorm_at3 m ρ c)

/-! ## The first layer -/

/-- The first region's output: the node features times the first weights. -/
theorem product1 : W4 m ρ c (Proc.devRef .tc main_v30) = Layer.dense (m ((c : Thread nD τ).loc main_arg0)) (m ((c : Thread nD τ).loc main_arg3)) :=
  (W4_arr m ρ c 2).trans ((Dense0.final (V3 m ρ) c).trans
    (dense_congr (launch_at3 m ρ c (b := main_arg0) (by unwritten) (by unwritten) (by unwritten)) (launch_at3 m ρ c (b := main_arg3) (by unwritten) (by unwritten) (by unwritten))))

/-- Aggregated along the edges. -/
theorem aggregated1 : W5 m ρ c (Proc.devRef .tc main_v43) = Graph.aggregate (Layer.dense (m ((c : Thread nD τ).loc main_arg0)) (m ((c : Thread nD τ).loc main_arg3))) (Graph.sources (m ((c : Thread nD τ).loc main_arg1))) (Graph.targets (m ((c : Thread nD τ).loc main_arg1))) (Graph.edgeNorm (m ((c : Thread nD τ).loc main_arg1))) :=
  (Stretch.aggregated1 (W4 m ρ c)).trans
    (Graph.aggregate_congr (product1 m ρ c) (sources_at4 m ρ c) (targets_at4 m ρ c) (edgeNorm_at4 m ρ c))

/-- The first layer's bias, as a row. -/
theorem bias1_row : W5 m ρ c (Proc.devRef .tc main_v44) = shapeCast S1x133 (m ((c : Thread nD τ).loc main_arg4)) shapeCasts_S133_S1x133 :=
  (Stretch.bias1 (W4 m ρ c)).trans
    (congrArg (fun z => shapeCast S1x133 z shapeCasts_S133_S1x133) (launch_at4 m ρ c (b := main_arg4) (by decide) (by unwritten) (by unwritten) (by unwritten)))
/-- Its gain. -/
theorem gain1_row : W5 m ρ c (Proc.devRef .tc main_v45) = shapeCast S1x133 (m ((c : Thread nD τ).loc main_arg7)) shapeCasts_S133_S1x133 :=
  (Stretch.gain1 (W4 m ρ c)).trans
    (congrArg (fun z => shapeCast S1x133 z shapeCasts_S133_S1x133) (launch_at4 m ρ c (b := main_arg7) (by decide) (by unwritten) (by unwritten) (by unwritten)))
/-- Its shift. -/
theorem shift1_row : W5 m ρ c (Proc.devRef .tc main_v46) = shapeCast S1x133 (m ((c : Thread nD τ).loc main_arg8)) shapeCasts_S133_S1x133 :=
  (Stretch.shift1 (W4 m ρ c)).trans
    (congrArg (fun z => shapeCast S1x133 z shapeCasts_S133_S1x133) (launch_at4 m ρ c (b := main_arg8) (by decide) (by unwritten) (by unwritten) (by unwritten)))
/-- Its running mean. -/
theorem mean1_row : W5 m ρ c (Proc.devRef .tc main_v47) = shapeCast S1x133 (m ((c : Thread nD τ).loc main_arg9)) shapeCasts_S133_S1x133 :=
  (Stretch.mean1 (W4 m ρ c)).trans
    (congrArg (fun z => shapeCast S1x133 z shapeCasts_S133_S1x133) (launch_at4 m ρ c (b := main_arg9) (by decide) (by unwritten) (by unwritten) (by unwritten)))
/-- Its running variance. -/
theorem var1_row : W5 m ρ c (Proc.devRef .tc main_v48) = shapeCast S1x133 (m ((c : Thread nD τ).loc main_arg10)) shapeCasts_S133_S1x133 :=
  (Stretch.var1 (W4 m ρ c)).trans
    (congrArg (fun z => shapeCast S1x133 z shapeCasts_S133_S1x133) (launch_at4 m ρ c (b := main_arg10) (by decide) (by unwritten) (by unwritten) (by unwritten)))

/-- The second region's output: the first layer. -/
theorem layer1 : W6 m ρ c (Proc.devRef .tc main_v49) = Graph.layer (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) :=
  (W6_arr m ρ c 6).trans ((Norm1.final (V5 m ρ) c).trans
    ((Layer.normaliseRows_congr (aggregated1 m ρ c) (bias1_row m ρ c) (gain1_row m ρ c) (shift1_row m ρ c) (mean1_row m ρ c)
        (var1_row m ρ c)).trans
      (Layer.normaliseRows_rows _ _ _ _ _ _ shapeCasts_S133_S1x133)))

/-! ## The second layer -/

/-- The third region's output: the first layer times the second weights. -/
theorem product2 : W7 m ρ c (Proc.devRef .tc main_v50) = Layer.dense (Graph.layer (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10))) (m ((c : Thread nD τ).loc main_arg5)) :=
  (W7_arr m ρ c 2).trans ((Dense2.final (V6 m ρ) c).trans
    (dense_congr (layer1 m ρ c)
      (launch_at6 m ρ c (b := main_arg5) (by decide) (by unwritten) (by decide) (by unwritten) (by unwritten) (by unwritten))))

/-- Aggregated along the edges. -/
theorem aggregated2 : W8 m ρ c (Proc.devRef .tc main_v63) = Graph.aggregate (Layer.dense (Graph.layer (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10))) (m ((c : Thread nD τ).loc main_arg5))) (Graph.sources (m ((c : Thread nD τ).loc main_arg1))) (Graph.targets (m ((c : Thread nD τ).loc main_arg1))) (Graph.edgeNorm (m ((c : Thread nD τ).loc main_arg1))) :=
  (Stretch.aggregated2 (W7 m ρ c)).trans
    (Graph.aggregate_congr (product2 m ρ c) (sources_at7 m ρ c) (targets_at7 m ρ c) (edgeNorm_at7 m ρ c))

/-- The second layer's bias, as a row. -/
theorem bias2_row : W8 m ρ c (Proc.devRef .tc main_v64) = shapeCast S1x133 (m ((c : Thread nD τ).loc main_arg6)) shapeCasts_S133_S1x133 :=
  (Stretch.bias2 (W7 m ρ c)).trans
    (congrArg (fun z => shapeCast S1x133 z shapeCasts_S133_S1x133) (launch_at7 m ρ c (b := main_arg6) (by decide) (by decide) (by unwritten) (by decide) (by unwritten) (by unwritten) (by unwritten)))
/-- Its gain. -/
theorem gain2_row : W8 m ρ c (Proc.devRef .tc main_v65) = shapeCast S1x133 (m ((c : Thread nD τ).loc main_arg11)) shapeCasts_S133_S1x133 :=
  (Stretch.gain2 (W7 m ρ c)).trans
    (congrArg (fun z => shapeCast S1x133 z shapeCasts_S133_S1x133) (launch_at7 m ρ c (b := main_arg11) (by decide) (by decide) (by unwritten) (by decide) (by unwritten) (by unwritten) (by unwritten)))
/-- Its shift. -/
theorem shift2_row : W8 m ρ c (Proc.devRef .tc main_v66) = shapeCast S1x133 (m ((c : Thread nD τ).loc main_arg12)) shapeCasts_S133_S1x133 :=
  (Stretch.shift2 (W7 m ρ c)).trans
    (congrArg (fun z => shapeCast S1x133 z shapeCasts_S133_S1x133) (launch_at7 m ρ c (b := main_arg12) (by decide) (by decide) (by unwritten) (by decide) (by unwritten) (by unwritten) (by unwritten)))
/-- Its running mean. -/
theorem mean2_row : W8 m ρ c (Proc.devRef .tc main_v67) = shapeCast S1x133 (m ((c : Thread nD τ).loc main_arg13)) shapeCasts_S133_S1x133 :=
  (Stretch.mean2 (W7 m ρ c)).trans
    (congrArg (fun z => shapeCast S1x133 z shapeCasts_S133_S1x133) (launch_at7 m ρ c (b := main_arg13) (by decide) (by decide) (by unwritten) (by decide) (by unwritten) (by unwritten) (by unwritten)))
/-- Its running variance. -/
theorem var2_row : W8 m ρ c (Proc.devRef .tc main_v68) = shapeCast S1x133 (m ((c : Thread nD τ).loc main_arg14)) shapeCasts_S133_S1x133 :=
  (Stretch.var2 (W7 m ρ c)).trans
    (congrArg (fun z => shapeCast S1x133 z shapeCasts_S133_S1x133) (launch_at7 m ρ c (b := main_arg14) (by decide) (by decide) (by unwritten) (by decide) (by unwritten) (by unwritten) (by unwritten)))

/-- The fourth region's output: the second layer. -/
theorem layer2 : W9 m ρ c (Proc.devRef .tc main_v69)
    = Graph.layer (Graph.layer (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) :=
  (W9_arr m ρ c 6).trans ((Norm3.final (V8 m ρ) c).trans
    ((Layer.normaliseRows_congr (aggregated2 m ρ c) (bias2_row m ρ c) (gain2_row m ρ c) (shift2_row m ρ c) (mean2_row m ρ c)
        (var2_row m ρ c)).trans
      (Layer.normaliseRows_rows _ _ _ _ _ _ shapeCasts_S133_S1x133)))

/-! ## The result -/

/-- At the last boundary the result buffer holds the network of the launch arguments. -/
theorem value : W10 m ρ c (Proc.devRef .tc main_v81)
    = Graph.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (Stretch.pooled (W9 m ρ c)).trans
    (pool_congr (layer2 m ρ c)
      (launch_at9 m ρ c (b := main_arg2) (by decide) (by unwritten) (by decide) (by decide) (by unwritten) (by decide) (by unwritten) (by unwritten) (by unwritten)))

end Cert.KernelIdeal.Read

end
-- ==== Proof.RefValue.lean ====
/-
  The idealized reference computes the network: the term its run ends at, read one stage at a time, is `Graph.network` of the
  arguments.

  The reference spells every operation on the host. Its matrix products are `dot_general`s, read at an entry as the sum over the
  contracted axis; its edge lists, edge norm, aggregations and pooling are the same host operations as the kernel's, computed
  afresh for the second layer from the same table; its normalisation broadcasts each feature vector first to a row and then down
  the 50000 nodes, so that an entry reads the vector at the entry's column, and applies the bias, the rectifier and the rest entry
  by entry with the same two literals. Its rsqrt on the host and the kernel's are one function on the extended reals.
-/
import proofs.«153986_j13073880449158_2_alg».proof.Proof.RefReadP
import proofs.«153986_j13073880449158_2_alg».proof.Proof.Network
import Idealize.ShloMosaic.Lib.ValueIdx

set_option maxRecDepth 16384

noncomputable section

namespace Cert.ReferenceIdeal.Bridge

open Cert.ReferenceIdeal Cert.ReferenceIdeal.ReadP Idealize.ShloMosaic Idealize.ShloMosaic.ValueIdx
open Cert

/-! ## The normalisation, as the reference spells it -/

/-- Bias, rectifier and normalisation through the reference's own stages: each feature vector broadcast to a row and down the
    nodes, the zero and ε splat, the operations entry by entry. -/
def hostNormalise (h : (⟨S50000x133, .f32⟩ : BufTy).Contents (Elt Ideal)) (b g β μ v : (⟨S133, .f32⟩ : BufTy).Contents (Elt Ideal)) : (⟨S50000x133, .f32⟩ : BufTy).Contents (Elt Ideal) :=
  addf (mulf (mulf (subf (maximumf (addf h (val_main_v45 b)) (val_main_call1_v0 (F := Ideal))) (val_main_v49 μ)) (val_main_v55 v))
    (val_main_v58 g)) (val_main_v61 β)

theorem feat_45 (i : S50000x133.Idx) : idx_main_v44 (idx_main_v45 i) = Layer.feat i :=
  funext fun a => by match a with | ⟨0, _⟩ => rfl
theorem feat_49 (i : S50000x133.Idx) : idx_main_v48 (idx_main_v49 i) = Layer.feat i :=
  funext fun a => by match a with | ⟨0, _⟩ => rfl
theorem feat_55 (i : S50000x133.Idx) : idx_main_v54 (idx_main_v55 i) = Layer.feat i :=
  funext fun a => by match a with | ⟨0, _⟩ => rfl
theorem feat_58 (i : S50000x133.Idx) : idx_main_v57 (idx_main_v58 i) = Layer.feat i :=
  funext fun a => by match a with | ⟨0, _⟩ => rfl
theorem feat_61 (i : S50000x133.Idx) : idx_main_v60 (idx_main_v61 i) = Layer.feat i :=
  funext fun a => by match a with | ⟨0, _⟩ => rfl

/-- Read at an entry it is the formula at the entry's feature. -/
theorem hostNormalise_eq (h : (⟨S50000x133, .f32⟩ : BufTy).Contents (Elt Ideal)) (b g β μ v : (⟨S133, .f32⟩ : BufTy).Contents (Elt Ideal)) :
    hostNormalise h b g β μ v = Layer.normalise h b g β μ v := by
  funext i
  simp only [hostNormalise, Layer.normalise, addf_apply, mulf_apply, subf_apply, maximumf_apply,
    val_main_v45_apply, val_main_v44_apply, val_main_call1_v0_apply, val_main_call1_cst_apply,
    val_main_v49_apply, val_main_v48_apply, val_main_v55_apply, val_main_v54_apply, val_main_v53_apply, val_main_v52_apply,
    val_main_v51_apply, val_main_cst_9_apply, val_main_v58_apply, val_main_v57_apply, val_main_v61_apply, val_main_v60_apply,
    feat_45, feat_49, feat_55, feat_58, feat_61, Ideal.hostUnary_rsqrt_def, Ideal.ofBits_def, Ideal.addf_def]

/-! ## The stages, as the shared functions -/

theorem dense_eq (x : (⟨S50000x133, .f32⟩ : BufTy).Contents (Elt Ideal)) (w : (⟨S133x133, .f32⟩ : BufTy).Contents (Elt Ideal)) : val_main_v4 (F := Ideal) x w = Layer.dense x w := by
  funext i
  rw [val_main_v4_apply]
  rfl

theorem sources_eq (x1 : (⟨S2x1600000, .i32⟩ : BufTy).Contents (Elt Ideal)) : val_main_v6 (F := Ideal) x1 = Graph.sources x1 := rfl
theorem targets_eq (x1 : (⟨S2x1600000, .i32⟩ : BufTy).Contents (Elt Ideal)) : val_main_v7 (F := Ideal) x1 = Graph.targets x1 := rfl
theorem edgeNorm_eq (x1 : (⟨S2x1600000, .i32⟩ : BufTy).Contents (Elt Ideal)) : val_main_v30 (F := Ideal) x1 = Graph.edgeNorm x1 := rfl

theorem aggregate1_eq (x0 : (⟨S50000x133, .f32⟩ : BufTy).Contents (Elt Ideal)) (x1 : (⟨S2x1600000, .i32⟩ : BufTy).Contents (Elt Ideal)) (x3 : (⟨S133x133, .f32⟩ : BufTy).Contents (Elt Ideal)) :
    val_main_v43 (F := Ideal) x0 x1 x3 = Graph.aggregate (val_main_v4 x0 x3) (val_main_v6 x1) (val_main_v7 x1) (val_main_v30 x1) := rfl

/-! ## The first layer -/

theorem normalise1_eq (x0 : (⟨S50000x133, .f32⟩ : BufTy).Contents (Elt Ideal)) (x1 : (⟨S2x1600000, .i32⟩ : BufTy).Contents (Elt Ideal)) (x3 : (⟨S133x133, .f32⟩ : BufTy).Contents (Elt Ideal)) (x4 : (⟨S133, .f32⟩ : BufTy).Contents (Elt Ideal)) (x7 : (⟨S133, .f32⟩ : BufTy).Contents (Elt Ideal)) (x8 : (⟨S133, .f32⟩ : BufTy).Contents (Elt Ideal)) (x9 : (⟨S133, .f32⟩ : BufTy).Contents (Elt Ideal)) (x10 : (⟨S133, .f32⟩ : BufTy).Contents (Elt Ideal)) :
    val_main_v62 (F := Ideal) x0 x1 x3 x4 x7 x8 x9 x10 = hostNormalise (val_main_v43 x0 x1 x3) x4 x7 x8 x9 x10 := rfl

/-- The reference's first layer is the first layer. -/
theorem layer1_eq (x0 : (⟨S50000x133, .f32⟩ : BufTy).Contents (Elt Ideal)) (x1 : (⟨S2x1600000, .i32⟩ : BufTy).Contents (Elt Ideal)) (x3 : (⟨S133x133, .f32⟩ : BufTy).Contents (Elt Ideal)) (x4 : (⟨S133, .f32⟩ : BufTy).Contents (Elt Ideal)) (x7 : (⟨S133, .f32⟩ : BufTy).Contents (Elt Ideal)) (x8 : (⟨S133, .f32⟩ : BufTy).Contents (Elt Ideal)) (x9 : (⟨S133, .f32⟩ : BufTy).Contents (Elt Ideal)) (x10 : (⟨S133, .f32⟩ : BufTy).Contents (Elt Ideal)) :
    val_main_v62 (F := Ideal) x0 x1 x3 x4 x7 x8 x9 x10 = Graph.layer x0 x1 x3 x4 x7 x8 x9 x10 :=
  (normalise1_eq x0 x1 x3 x4 x7 x8 x9 x10).trans ((hostNormalise_eq _ x4 x7 x8 x9 x10).trans
    (congrArg (fun z => Layer.normalise z x4 x7 x8 x9 x10)
      ((aggregate1_eq x0 x1 x3).trans
        (Graph.aggregate_congr (dense_eq x0 x3) (sources_eq x1) (targets_eq x1) (edgeNorm_eq x1)))))

/-! ## The second layer: the same operations, the edge data computed afresh from the same table -/

theorem product2_eq (x0 : (⟨S50000x133, .f32⟩ : BufTy).Contents (Elt Ideal)) (x1 : (⟨S2x1600000, .i32⟩ : BufTy).Contents (Elt Ideal)) (x3 : (⟨S133x133, .f32⟩ : BufTy).Contents (Elt Ideal)) (x4 : (⟨S133, .f32⟩ : BufTy).Contents (Elt Ideal)) (x5 : (⟨S133x133, .f32⟩ : BufTy).Contents (Elt Ideal)) (x7 : (⟨S133, .f32⟩ : BufTy).Contents (Elt Ideal)) (x8 : (⟨S133, .f32⟩ : BufTy).Contents (Elt Ideal)) (x9 : (⟨S133, .f32⟩ : BufTy).Contents (Elt Ideal)) (x10 : (⟨S133, .f32⟩ : BufTy).Contents (Elt Ideal)) :
    val_main_v63 (F := Ideal) x0 x1 x3 x4 x5 x7 x8 x9 x10 = val_main_v4 (val_main_v62 x0 x1 x3 x4 x7 x8 x9 x10) x5 := rfl

theorem aggregate2_eq (x0 : (⟨S50000x133, .f32⟩ : BufTy).Contents (Elt Ideal)) (x1 : (⟨S2x1600000, .i32⟩ : BufTy).Contents (Elt Ideal)) (x3 : (⟨S133x133, .f32⟩ : BufTy).Contents (Elt Ideal)) (x4 : (⟨S133, .f32⟩ : BufTy).Contents (Elt Ideal)) (x5 : (⟨S133x133, .f32⟩ : BufTy).Contents (Elt Ideal)) (x7 : (⟨S133, .f32⟩ : BufTy).Contents (Elt Ideal)) (x8 : (⟨S133, .f32⟩ : BufTy).Contents (Elt Ideal)) (x9 : (⟨S133, .f32⟩ : BufTy).Contents (Elt Ideal)) (x10 : (⟨S133, .f32⟩ : BufTy).Contents (Elt Ideal)) :
    val_main_v102 (F := Ideal) x0 x1 x3 x4 x5 x7 x8 x9 x10
      = Graph.aggregate (val_main_v63 x0 x1 x3 x4 x5 x7 x8 x9 x10) (val_main_v6 x1) (val_main_v7 x1) (val_main_v30 x1) := rfl

theorem normalise2_eq (x0 : (⟨S50000x133, .f32⟩ : BufTy).Contents (Elt Ideal)) (x1 : (⟨S2x1600000, .i32⟩ : BufTy).Contents (Elt Ideal)) (x3 : (⟨S133x133, .f32⟩ : BufTy).Contents (Elt Ideal)) (x4 : (⟨S133, .f32⟩ : BufTy).Contents (Elt Ideal)) (x5 : (⟨S133x133, .f32⟩ : BufTy).Contents (Elt Ideal)) (x6 : (⟨S133, .f32⟩ : BufTy).Contents (Elt Ideal)) (x7 : (⟨S133, .f32⟩ : BufTy).Contents (Elt Ideal)) (x8 : (⟨S133, .f32⟩ : BufTy).Contents (Elt Ideal)) (x9 : (⟨S133, .f32⟩ : BufTy).Contents (Elt Ideal)) (x10 : (⟨S133, .f32⟩ : BufTy).Contents (Elt Ideal)) (x11 : (⟨S133, .f32⟩ : BufTy).Contents (Elt Ideal)) (x12 : (⟨S133, .f32⟩ : BufTy).Contents (Elt Ideal)) (x13 : (⟨S133, .f32⟩ : BufTy).Contents (Elt Ideal)) (x14 : (⟨S133, .f32⟩ : BufTy).Contents (Elt Ideal)) :
    val_main_v121 (F := Ideal) x0 x1 x3 x4 x5 x6 x7 x8 x9 x10 x11 x12 x13 x14 = hostNormalise (val_main_v102 x0 x1 x3 x4 x5 x7 x8 x9 x10) x6 x11 x12 x13 x14 := rfl

/-- The reference's second layer is the second layer. -/
theorem layer2_eq (x0 : (⟨S50000x133, .f32⟩ : BufTy).Contents (Elt Ideal)) (x1 : (⟨S2x1600000, .i32⟩ : BufTy).Contents (Elt Ideal)) (x3 : (⟨S133x133, .f32⟩ : BufTy).Contents (Elt Ideal)) (x4 : (⟨S133, .f32⟩ : BufTy).Contents (Elt Ideal)) (x5 : (⟨S133x133, .f32⟩ : BufTy).Contents (Elt Ideal)) (x6 : (⟨S133, .f32⟩ : BufTy).Contents (Elt Ideal)) (x7 : (⟨S133, .f32⟩ : BufTy).Contents (Elt Ideal)) (x8 : (⟨S133, .f32⟩ : BufTy).Contents (Elt Ideal)) (x9 : (⟨S133, .f32⟩ : BufTy).Contents (Elt Ideal)) (x10 : (⟨S133, .f32⟩ : BufTy).Contents (Elt Ideal)) (x11 : (⟨S133, .f32⟩ : BufTy).Contents (Elt Ideal)) (x12 : (⟨S133, .f32⟩ : BufTy).Contents (Elt Ideal)) (x13 : (⟨S133, .f32⟩ : BufTy).Contents (Elt Ideal)) (x14 : (⟨S133, .f32⟩ : BufTy).Contents (Elt Ideal)) :
    val_main_v121 (F := Ideal) x0 x1 x3 x4 x5 x6 x7 x8 x9 x10 x11 x12 x13 x14 = Graph.layer (Graph.layer x0 x1 x3 x4 x7 x8 x9 x10) x1 x5 x6 x11 x12 x13 x14 :=
  (normalise2_eq x0 x1 x3 x4 x5 x6 x7 x8 x9 x10 x11 x12 x13 x14).trans ((hostNormalise_eq _ x6 x11 x12 x13 x14).trans
    (congrArg (fun z => Layer.normalise z x6 x11 x12 x13 x14)
      ((aggregate2_eq x0 x1 x3 x4 x5 x7 x8 x9 x10).trans
        (Graph.aggregate_congr
          ((product2_eq x0 x1 x3 x4 x5 x7 x8 x9 x10).trans ((dense_eq _ x5).trans
            (congrArg (fun z => Layer.dense z x5) (layer1_eq x0 x1 x3 x4 x7 x8 x9 x10))))
          (sources_eq x1) (targets_eq x1) (edgeNorm_eq x1)))))

/-! ## The result -/

theorem pooled_eq (x0 : (⟨S50000x133, .f32⟩ : BufTy).Contents (Elt Ideal)) (x1 : (⟨S2x1600000, .i32⟩ : BufTy).Contents (Elt Ideal)) (x2 : (⟨S50000, .i32⟩ : BufTy).Contents (Elt Ideal)) (x3 : (⟨S133x133, .f32⟩ : BufTy).Contents (Elt Ideal)) (x4 : (⟨S133, .f32⟩ : BufTy).Contents (Elt Ideal)) (x5 : (⟨S133x133, .f32⟩ : BufTy).Contents (Elt Ideal)) (x6 : (⟨S133, .f32⟩ : BufTy).Contents (Elt Ideal)) (x7 : (⟨S133, .f32⟩ : BufTy).Contents (Elt Ideal)) (x8 : (⟨S133, .f32⟩ : BufTy).Contents (Elt Ideal)) (x9 : (⟨S133, .f32⟩ : BufTy).Contents (Elt Ideal)) (x10 : (⟨S133, .f32⟩ : BufTy).Contents (Elt Ideal)) (x11 : (⟨S133, .f32⟩ : BufTy).Contents (Elt Ideal)) (x12 : (⟨S133, .f32⟩ : BufTy).Contents (Elt Ideal)) (x13 : (⟨S133, .f32⟩ : BufTy).Contents (Elt Ideal)) (x14 : (⟨S133, .f32⟩ : BufTy).Contents (Elt Ideal)) :
    val_main_v133 (F := Ideal) x0 x1 x2 x3 x4 x5 x6 x7 x8 x9 x10 x11 x12 x13 x14 = Graph.pool (val_main_v121 x0 x1 x3 x4 x5 x6 x7 x8 x9 x10 x11 x12 x13 x14) x2 := rfl

/-- The reference's result is the network of its arguments. -/
theorem value (x0 : (⟨S50000x133, .f32⟩ : BufTy).Contents (Elt Ideal)) (x1 : (⟨S2x1600000, .i32⟩ : BufTy).Contents (Elt Ideal)) (x2 : (⟨S50000, .i32⟩ : BufTy).Contents (Elt Ideal)) (x3 : (⟨S133x133, .f32⟩ : BufTy).Contents (Elt Ideal)) (x4 : (⟨S133, .f32⟩ : BufTy).Contents (Elt Ideal)) (x5 : (⟨S133x133, .f32⟩ : BufTy).Contents (Elt Ideal)) (x6 : (⟨S133, .f32⟩ : BufTy).Contents (Elt Ideal)) (x7 : (⟨S133, .f32⟩ : BufTy).Contents (Elt Ideal)) (x8 : (⟨S133, .f32⟩ : BufTy).Contents (Elt Ideal)) (x9 : (⟨S133, .f32⟩ : BufTy).Contents (Elt Ideal)) (x10 : (⟨S133, .f32⟩ : BufTy).Contents (Elt Ideal)) (x11 : (⟨S133, .f32⟩ : BufTy).Contents (Elt Ideal)) (x12 : (⟨S133, .f32⟩ : BufTy).Contents (Elt Ideal)) (x13 : (⟨S133, .f32⟩ : BufTy).Contents (Elt Ideal)) (x14 : (⟨S133, .f32⟩ : BufTy).Contents (Elt Ideal)) :
    val_main_v133 (F := Ideal) x0 x1 x2 x3 x4 x5 x6 x7 x8 x9 x10 x11 x12 x13 x14 = Graph.network x0 x1 x2 x3 x4 x5 x6 x7 x8 x9 x10 x11 x12 x13 x14 :=
  (pooled_eq x0 x1 x2 x3 x4 x5 x6 x7 x8 x9 x10 x11 x12 x13 x14).trans (congrArg (fun z => Graph.pool z x2) (layer2_eq x0 x1 x3 x4 x5 x6 x7 x8 x9 x10 x11 x12 x13 x14))

end Cert.ReferenceIdeal.Bridge

end
-- ==== Proof.lean ====
/-
  Two layers of a graph convolution over 50000 nodes with 133 features and 1600000 edges, then the nodes pooled into 2048
  groups: the kernel against the host reference, at the ideal values.

  Both programs compute, per layer, the product of the node matrix with a 133 × 133 weight matrix, its aggregation along the
  edges (rows gathered by source, scaled by the product of the two ends' inverse square root degrees, summed by target), and
  ((max (h + b) 0 − μ) · rsqrt (v + ε)) · g + β feature by feature; then the group sums divided by the group sizes. The kernel does
  the two products and the two normalisations in four regions, ten blocks of 5000 rows each, and everything else in host operations
  between them; the reference does everything on the host. On the extended reals a change of float format is the identity, a
  product into a zero accumulator is the sum over the contracted axis, and the host's rsqrt is the kernel's, so each region's
  output array is the same function of its inputs as the reference's stage (`Layer.dense`, `Layer.normalise`); the host operations
  the programs share are applied to equal values and never opened. No step regroups a sum or moves a factor across one, so the
  inputs' finiteness is never used. The idealization rewrote no operation: nothing is owed for it.
-/
import proofs.«153986_j13073880449158_2_alg».proof.Defs
import proofs.«153986_j13073880449158_2_alg».proof.Proof.Gen.Kernel
import proofs.«153986_j13073880449158_2_alg».proof.Proof.Gen.Kernel.Frame
import proofs.«153986_j13073880449158_2_alg».proof.Proof.Gen.KernelIdeal
import proofs.«153986_j13073880449158_2_alg».proof.Proof.Gen.KernelIdeal.Frame
import proofs.«153986_j13073880449158_2_alg».proof.Proof.Gen.ReferenceIdeal
import proofs.«153986_j13073880449158_2_alg».proof.Proof.Gen.Pre_finite_inputs
import proofs.«153986_j13073880449158_2_alg».proof.Proof.RefRunP
import proofs.«153986_j13073880449158_2_alg».proof.Proof.RefReadP
import proofs.«153986_j13073880449158_2_alg».proof.Proof.KernelRun
import proofs.«153986_j13073880449158_2_alg».proof.Proof.KernelValue
import proofs.«153986_j13073880449158_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run ends with its result at the operations' composed term and its arguments as launched; the frame is that
    run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments both programs end with the network of the arguments in their result buffers: the
    kernel's result buffer ends at the last boundary's contents, which read back to the network of its launch arguments; the
    reference's ends at its composed term, which is the network of its own arguments, and those are the kernel's. -/
theorem algebraic : Cert.algebraic_KernelIdeal_ReferenceIdeal := by
  intro m ρ m' ρ' _ hagree
  refine ⟨fun c => Cert.Graph.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Read.value m ρ c), (h c).2⟩)
      (Cert.KernelIdeal.Result.run m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12, e13, e14⟩ := hagree c
    rw [Cert.ReferenceIdeal.ReadP.val_main_v133_eq, Cert.ReferenceIdeal.Bridge.value,
      e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
